-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x128 : Shape := ⟨3, ![1024, 256, 128]⟩
abbrev S1024x256x32 : Shape := ⟨3, ![1024, 256, 32]⟩
abbrev S1024x256 : Shape := ⟨2, ![1024, 256]⟩
abbrev S128x512 : Shape := ⟨2, ![128, 512]⟩
abbrev S32x512 : Shape := ⟨2, ![32, 512]⟩
abbrev S512 : Shape := ⟨1, ![512]⟩
abbrev S512x512 : Shape := ⟨2, ![512, 512]⟩
abbrev S512x1 : Shape := ⟨2, ![512, 1]⟩
abbrev S_ : Shape := ⟨0, ![]⟩

class Facts : Prop where
  bcast_S_S1024x256x128 : S_.BroadcastsInDim S1024x256x128 (![] : Fin 0 → Fin S1024x256x128.rank)
  reducesTo_S1024x256x128_S_d0_1_2 : S1024x256x128.ReducesTo [0, 1, 2] S_
  h_S_ : 0 < S_.numel
  bcast_S_S1024x256x32 : S_.BroadcastsInDim S1024x256x32 (![] : Fin 0 → Fin S1024x256x32.rank)
  reducesTo_S1024x256x32_S_d0_1_2 : S1024x256x32.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S128x512 : S_.BroadcastsInDim S128x512 (![] : Fin 0 → Fin S128x512.rank)
  reducesTo_S128x512_S_d0_1 : S128x512.ReducesTo [0, 1] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg7 : FVec F S512 .f32) (main_arg8 : FVec F S512x1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  main_v43

def fn_part1 {F : FTy → Type} [FloatOps F] (main_arg4 : FVec F S32x512 .f32) (main_arg5 : FVec F S512 .f32) (main_arg6 : FVec F S512x512 .f32) (main_arg7 : FVec F S512 .f32) (main_arg8 : FVec F S512x1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_v33

def fn {F : FTy → Type} [FloatOps F] (main_arg0 : FVec F S1024x256x128 .f32) (main_arg1 : FVec F S1024x256x32 .f32) (main_arg2 : FVec F S1024x256 .f32) (main_arg3 : FVec F S128x512 .f32) (main_arg4 : FVec F S32x512 .f32) (main_arg5 : FVec F S512 .f32) (main_arg6 : FVec F S512x512 .f32) (main_arg7 : FVec F S512 .f32) (main_arg8 : FVec F S512x1 .f32) : IVec S_ 1 :=
  let main_v0 : FVec F S1024x256x128 .f32 := Host.absf main_arg0
  let main_cst : FVec F S_ .f32 := constant S_ .f32 0x7F800000#32
  let main_v1 : FVec F S1024x256x128 .f32 := broadcastInDim S1024x256x128 ![] bcast_S_S1024x256x128 main_cst
  let main_v2 : IVec S1024x256x128 1 := cmpf .olt main_v0 main_v1
  let main_c : IVec S_ 1 := constantI S_ 1 1#1
  let main_v3 : IVec S_ 1 := (fun x v => Host.reduce IntOp.andi x v reducesTo_S1024x256x128_S_d0_1_2 h_S_) main_v2 main_c
  let main_v4 : FVec F S1024x256x32 .f32 := Host.absf main_arg1
  let main_cst_0 : FVec F S_ .f32 := constant S_ .f32 0x7F800000#32
  let main_v5 : FVec F S1024x256x32 .f32 := broadcastInDim S1024x256x32 ![] bcast_S_S1024x256x32 main_cst_0
  let main_v6 : IVec S1024x256x32 1 := cmpf .olt main_v4 main_v5
  let main_c_1 : IVec S_ 1 := constantI S_ 1 1#1
  let main_v7 : IVec S_ 1 := (fun x v => Host.reduce IntOp.andi x v reducesTo_S1024x256x32_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_v13 main_v16
-- ==== Kernel.lean ====
abbrev S1024x256x128 : Shape := ⟨3, ![1024, 256, 128]⟩
abbrev S1024x256x32 : Shape := ⟨3, ![1024, 256, 32]⟩
abbrev S1024x256 : Shape := ⟨2, ![1024, 256]⟩
abbrev S128x512 : Shape := ⟨2, ![128, 512]⟩
abbrev S32x512 : Shape := ⟨2, ![32, 512]⟩
abbrev S512 : Shape := ⟨1, ![512]⟩
abbrev S512x512 : Shape := ⟨2, ![512, 512]⟩
abbrev S512x1 : Shape := ⟨2, ![512, 1]⟩
abbrev S262144x128 : Shape := ⟨2, ![262144, 128]⟩
abbrev S262144x32 : Shape := ⟨2, ![262144, 32]⟩
abbrev S1x512 : Shape := ⟨2, ![1, 512]⟩
abbrev S1024x1 : Shape := ⟨2, ![1024, 1]⟩
abbrev S2048x128 : Shape := ⟨2, ![2048, 128]⟩
abbrev S2048x32 : Shape := ⟨2, ![2048, 32]⟩
abbrev S8x256 : Shape := ⟨2, ![8, 256]⟩
abbrev S8x1 : Shape := ⟨2, ![8, 1]⟩
abbrev S2048x512 : Shape := ⟨2, ![2048, 512]⟩
abbrev S8x256x512 : Shape := ⟨3, ![8, 256, 512]⟩
abbrev S8x512 : Shape := ⟨2, ![8, 512]⟩
abbrev S8 : Shape := ⟨1, ![8]⟩
abbrev S1x1024x1 : Shape := ⟨3, ![1, 1024, 1]⟩
abbrev S1 : Shape := ⟨1, ![1]⟩
abbrev S1x1x1 : Shape := ⟨3, ![1, 1, 1]⟩
abbrev S1024 : Shape := ⟨1, ![1024]⟩

abbrev nBuf : Space → Nat
  | .hbm => 19
  | .vmem => 18
  | .smem => 0
  | _ => 0

abbrev bufTy : (tb : Table) → Fin (tcTables nBuf tb) → BufTy
  | .hbm, ⟨0, _⟩ => ⟨S1024x256x128, .f32⟩
  | .hbm, ⟨1, _⟩ => ⟨S1024x256x32, .f32⟩
  | .hbm, ⟨2, _⟩ => ⟨S1024x256, .f32⟩
  | .hbm, ⟨3, _⟩ => ⟨S128x512, .f32⟩
  | .hbm, ⟨4, _⟩ => ⟨S32x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S262144x128, .f32⟩
  | .hbm, ⟨10, _⟩ => ⟨S262144x32, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024, .f32⟩
  | .hbm, ⟨18, _⟩ => ⟨S1024, .f32⟩
  | .local _ .vmem, ⟨0, _⟩ => ⟨S2048x128, .f32⟩
  | .local _ .vmem, ⟨1, _⟩ => ⟨S2048x128, .f32⟩
  | .local _ .vmem, ⟨2, _⟩ => ⟨S2048x32, .f32⟩
  | .local _ .vmem, ⟨3, _⟩ => ⟨S2048x32, .f32⟩
  | .local _ .vmem, ⟨4, _⟩ => ⟨S8x256, .f32⟩
  | .local _ .vmem, ⟨5, _⟩ => ⟨S8x256, .f32⟩
  | .local _ .vmem, ⟨6, _⟩ => ⟨S128x512, .f32⟩
  | .local _ .vmem, ⟨7, _⟩ => ⟨S32x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | .local _ .vmem, ⟨16, _⟩ => ⟨S1024x1, .f32⟩
  | .local _ .vmem, ⟨17, _⟩ => ⟨S1024x1, .f32⟩
  | _, _ => ⟨S1024x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg1_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem1_0 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := .none

abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

class Facts₀ : Prop where
  shapeCasts_S1024x256x128_S262144x128 : S1024x256x128.ShapeCasts S262144x128
  shapeCasts_S1024x256x32_S262144x32 : S1024x256x32.ShapeCasts S262144x32
  shapeCasts_S512_S1x512 : S512.ShapeCasts S1x512
  shapeCasts_S512x1_S1x512 : S512x1.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S128x512_S128x512_0_0 : ∀ a, (![0, 0] : Fin 2 → Nat) a + S128x512.size a ≤ S128x512.size a
  h_S128x512 : 0 < S128x512.numel
  inb_S32x512_S32x512_0_0 : ∀ a, (![0, 0] : Fin 2 → Nat) a + S32x512.size a ≤ S32x512.size a
  h_S32x512 : 0 < S32x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S8x256x512 : S2048x512.ShapeCasts S8x256x512
  reduces_S8x256x512_S8x512 : S8x256x512.Reduces [1] S8x512
  reduces_S8x512_S8 : S8x512.Reduces [1] S8
  shapeCasts_S8_S8x1 : S8.ShapeCasts S8x1
  inb_S8x256_S8x256_0_0 : ∀ a, (![0, 0] : Fin 2 → Nat) a + S8x256.size a ≤ S8x256.size a
  h_S8x256 : 0 < S8x256.numel
  reduces_S8x256_S8 : S8x256.Reduces [1] S8
  inb_S8x1_S8x1_0_0 : ∀ a, (![0, 0] : Fin 2 → Nat) a + S8x1.size a ≤ S8x1.size a
  h_S8x1 : 0 < S8x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1024x1_S1024 : S1024x1.ShapeCasts S1024
  dot_S2048x128_S128x512_S2048x512_1_0_0_1_n_n_wf : DotDims.WF S2048x128 S128x512 S2048x512 [1] [0] [0] [1] [] []
  dot_S2048x32_S32x512_S2048x512_1_0_0_1_n_n_wf : DotDims.WF S2048x32 S32x512 S2048x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S262144x32.size a
  hwx0_1 : ∀ i : grid0.Coords, EltTy.bits .f32 = 32 ∨ (Rect.block (s := S262144x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S1024x256.size a
  hwx0_2 : ∀ i : grid0.Coords, EltTy.bits .f32 = 32 ∨ (Rect.block (s := S1024x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S1024x1.size a
  hwx0_9 : ∀ i : grid0.Coords, EltTy.bits .f32 = 32 ∨ (Rect.block (s := S1024x1) S8x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S1024x1.size a
  hwx0_10 : ∀ i : grid0.Coords, EltTy.bits .f32 = 32 ∨ (Rect.block (s := S1024x1) S8x1.size (cc0_transform_10 i) (hinb0_10 i)).WholeWords (EltTy.packing .f32)
  hstage1_0 : ∀ j, (stage1_0 j).IsWhole
  hstage1_1 : ∀ j, (stage1_1 j).IsWhole

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S8x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S8x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.whole (Memref.whole main_v5_0) false false (stage1_0 0) (sem1_0 0) (Memref.isWhole_whole _) (hstage1_0 0)

abbrev win1_1 : Pipeline.Window sig grid1 :=
  Pipeline.Window.whole (Memref.whole main_v6) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x256x128 : Shape := ⟨3, ![1024, 256, 128]⟩
abbrev S1024x256x32 : Shape := ⟨3, ![1024, 256, 32]⟩
abbrev S1024x256 : Shape := ⟨2, ![1024, 256]⟩
abbrev S128x512 : Shape := ⟨2, ![128, 512]⟩
abbrev S32x512 : Shape := ⟨2, ![32, 512]⟩
abbrev S512 : Shape := ⟨1, ![512]⟩
abbrev S512x512 : Shape := ⟨2, ![512, 512]⟩
abbrev S512x1 : Shape := ⟨2, ![512, 1]⟩
abbrev S262144x128 : Shape := ⟨2, ![262144, 128]⟩
abbrev S262144x32 : Shape := ⟨2, ![262144, 32]⟩
abbrev S262144x512 : Shape := ⟨2, ![262144, 512]⟩
abbrev S1x512 : Shape := ⟨2, ![1, 512]⟩
abbrev S262144x1 : Shape := ⟨2, ![262144, 1]⟩
abbrev S_ : Shape := ⟨0, ![]⟩
abbrev S1024 : Shape := ⟨1, ![1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x256x128, .f32⟩
  | .hbm, ⟨1, _⟩ => ⟨S1024x256x32, .f32⟩
  | .hbm, ⟨2, _⟩ => ⟨S1024x256, .f32⟩
  | .hbm, ⟨3, _⟩ => ⟨S128x512, .f32⟩
  | .hbm, ⟨4, _⟩ => ⟨S32x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S262144x128, .f32⟩
  | .hbm, ⟨10, _⟩ => ⟨S262144x32, .f32⟩
  | .hbm, ⟨11, _⟩ => ⟨S262144x512, .f32⟩
  | .hbm, ⟨12, _⟩ => ⟨S262144x512, .f32⟩
  | .hbm, ⟨13, _⟩ => ⟨S262144x512, .f32⟩
  | .hbm, ⟨14, _⟩ => ⟨S1x512, .f32⟩
  | .hbm, ⟨15, _⟩ => ⟨S262144x512, .f32⟩
  | .hbm, ⟨16, _⟩ => ⟨S262144x512, .f32⟩
  | .hbm, ⟨17, _⟩ => ⟨S262144x512, .f32⟩
  | .hbm, ⟨18, _⟩ => ⟨S262144x512, .f32⟩
  | .hbm, ⟨19, _⟩ => ⟨S1x512, .f32⟩
  | .hbm, ⟨20, _⟩ => ⟨S262144x512, .f32⟩
  | .hbm, ⟨21, _⟩ => ⟨S262144x512, .f32⟩
  | .hbm, ⟨22, _⟩ => ⟨S262144x512, .f32⟩
  | .hbm, ⟨23, _⟩ => ⟨S262144x1, .f32⟩
  | .hbm, ⟨24, _⟩ => ⟨S1024x256, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1024, .f32⟩
  | _, _ => ⟨S1024x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S1024x256x128_S262144x128 : S1024x256x128.ShapeCasts S262144x128
  shapeCasts_S1024x256x32_S262144x32 : S1024x256x32.ShapeCasts S262144x32
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  shapeCasts_S262144x1_S1024x256 : S262144x1.ShapeCasts S1024x256
  reducesTo_S1024x256_S1024_d1 : S1024x256.ReducesTo [1] S1024
  h_S_ : 0 < S_.numel
  reducesTo_S1024_S_d0 : S1024.ReducesTo [0] S_
  bcast_S_S1024 : S_.BroadcastsInDim S1024 (![] : Fin 0 → Fin S1024.rank)
  dot_S262144x128_S128x512_S262144x512_1_0_0_1_n_n_wf : DotDims.WF S262144x128 S128x512 S262144x512 [1] [0] [0] [1] [] []
  dot_S262144x32_S32x512_S262144x512_1_0_0_1_n_n_wf : DotDims.WF S262144x32 S32x512 S262144x512 [1] [0] [0] [1] [] []
  dot_S262144x512_S512x512_S262144x512_1_0_0_1_n_n_wf : DotDims.WF S262144x512 S512x512 S262144x512 [1] [0] [0] [1] [] []
  dot_S262144x512_S512x1_S262144x1_1_0_0_1_n_n_wf : DotDims.WF S262144x512 S512x1 S262144x1 [1] [0] [0] [1] [] []

variable [Facts₀]

def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf
def dot_S262144x32_S32x512_S262144x512_1_0_0_1_n_n : DotDims S262144x32 S32x512 S262144x512 where
  lhsContracting := [1]
  rhsContracting := [0]
  lhsNonContracting := [0]
  rhsNonContracting := [1]
  lhsBatch := []
  rhsBatch := []
  wf := dot_S262144x32_S32x512_S262144x512_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Spec.lean ====
/-
  The mathematics of the trajectory scorer, on the extended reals, free of any program.

  A step of a trajectory has a state row `s` (128 numbers) and an action row `a` (32 numbers). The policy network
  maps it to 512 features: first `tanh (s·W1 + a·W2 + b1)`, then `tanh (·W3 + b3)` of those. A step's score is the
  inner product of its features with the output weights; a trajectory's score is the sum of its 256 steps' scores.
  One side adds, per feature, the 256 steps' products first and then the 512 features; the other adds, per step, the 512
  products first and then the 256 steps: a double sum taken in the two orders, equal in any commutative monoid, so no
  finiteness is asked of anything.  The logit of a trajectory is its summed reward less its score, and the importance
  weights are the softmax of the 1024 logits, shifted by their maximum.
-/
import Idealize.ShloMosaic.PureOps.Ideal
import Idealize.ShloMosaic.PureOps.Ideal.Laws
import Idealize.ShloMosaic.Lib.ValueIdx

noncomputable section

open scoped BigOperators

namespace ReplayScore

open Idealize.ShloMosaic

/-- The first layer's feature `h` of one step: `tanh ((s·W1 + a·W2) + b1)`. -/
def layer1 (s : Fin 128 → EReal) (a : Fin 32 → EReal) (W1 : Fin 128 → Fin 512 → EReal) (W2 : Fin 32 → Fin 512 → EReal)
    (b1 : Fin 512 → EReal) (h : Fin 512) : EReal :=
  Ideal.tanh (((∑ k : Fin 128, s k * W1 k h) + (∑ k : Fin 32, a k * W2 k h)) + b1 h)

/-- The second layer's feature `h` from the first layer's 512: `tanh (g·W3 + b3)`. -/
def layer2 (g : Fin 512 → EReal) (W3 : Fin 512 → Fin 512 → EReal) (b3 : Fin 512 → EReal) (h : Fin 512) : EReal :=
  Ideal.tanh ((∑ k : Fin 512, g k * W3 k h) + b3 h)

/-- Feature `h` of one step, times the output weight of that feature. -/
def weighted (s : Fin 128 → EReal) (a : Fin 32 → EReal) (W1 : Fin 128 → Fin 512 → EReal) (W2 : Fin 32 → Fin 512 → EReal)
    (b1 : Fin 512 → EReal) (W3 : Fin 512 → Fin 512 → EReal) (b3 wo : Fin 512 → EReal) (h : Fin 512) : EReal :=
  layer2 (layer1 s a W1 W2 b1) W3 b3 h * wo h

/-- A trajectory's score, features outermost: for each feature the 256 steps' weighted values are added, then the 512 sums. -/
def scoreByFeature (S : Fin 256 → Fin 128 → EReal) (A : Fin 256 → Fin 32 → EReal) (W1 : Fin 128 → Fin 512 → EReal)
    (W2 : Fin 32 → Fin 512 → EReal) (b1 : Fin 512 → EReal) (W3 : Fin 512 → Fin 512 → EReal) (b3 wo : Fin 512 → EReal) : EReal :=
  ∑ h : Fin 512, ∑ τ : Fin 256, weighted (S τ) (A τ) W1 W2 b1 W3 b3 wo h

/-- A trajectory's score, steps outermost: each step's 512 weighted values are added, then the 256 step scores from zero. -/
def scoreByStep (S : Fin 256 → Fin 128 → EReal) (A : Fin 256 → Fin 32 → EReal) (W1 : Fin 128 → Fin 512 → EReal)
    (W2 : Fin 32 → Fin 512 → EReal) (b1 : Fin 512 → EReal) (W3 : Fin 512 → Fin 512 → EReal) (b3 wo : Fin 512 → EReal) : EReal :=
  0 + ∑ τ : Fin 256, ∑ h : Fin 512, weighted (S τ) (A τ) W1 W2 b1 W3 b3 wo h

/-- The two orders of the double sum agree. -/
theorem scoreByStep_eq (S : Fin 256 → Fin 128 → EReal) (A : Fin 256 → Fin 32 → EReal) (W1 : Fin 128 → Fin 512 → EReal)
    (W2 : Fin 32 → Fin 512 → EReal) (b1 : Fin 512 → EReal) (W3 : Fin 512 → Fin 512 → EReal) (b3 wo : Fin 512 → EReal) :
    scoreByStep S A W1 W2 b1 W3 b3 wo = scoreByFeature S A W1 W2 b1 W3 b3 wo := by
  unfold scoreByStep scoreByFeature
  rw [zero_add, Finset.sum_comm]

/-- The shift of a softmax over 1024 logits: their maximum, folded from minus infinity. -/
def shift (l : Fin 1024 → EReal) : EReal :=
  (Finset.univ : Finset (Fin 1024)).fold max (Ideal.ofBits .f32 0xFF800000#32) l

/-- The softmax of 1024 logits at `n`. -/
def softmax (l : Fin 1024 → EReal) (n : Fin 1024) : EReal :=
  Ideal.div (Ideal.exp (l n - shift l)) (∑ k : Fin 1024, Ideal.exp (l k - shift l))

/-! ## The two results as functions of the nine argument arrays -/

open Idealize.ShloMosaic.ValueIdx

/-- The score of trajectory `n` from the argument arrays: states [1024, 256, 128], actions [1024, 256, 32], the weights
    and biases, the output weights a column [512, 1]. -/
def trajScore (a0 : (⟨3, ![1024, 256, 128]⟩ : Shape).Idx → EReal) (a1 : (⟨3, ![1024, 256, 32]⟩ : Shape).Idx → EReal)
    (a3 : (⟨2, ![128, 512]⟩ : Shape).Idx → EReal) (a4 : (⟨2, ![32, 512]⟩ : Shape).Idx → EReal)
    (a5 : (⟨1, ![512]⟩ : Shape).Idx → EReal) (a6 : (⟨2, ![512, 512]⟩ : Shape).Idx → EReal)
    (a7 : (⟨1, ![512]⟩ : Shape).Idx → EReal) (a8 : (⟨2, ![512, 1]⟩ : Shape).Idx → EReal) (n : Fin 1024) : EReal :=
  scoreByFeature (fun τ k => a0 (ix3 n τ k)) (fun τ k => a1 (ix3 n τ k)) (fun k h => a3 (ix2 k h)) (fun k h => a4 (ix2 k h))
    (fun h => a5 (ix1 h)) (fun k h => a6 (ix2 k h)) (fun h => a7 (ix1 h)) (fun h => a8 (ix2 h 0))

/-- The logit of trajectory `n`: its summed reward less its score. -/
def trajLogit (a0 : (⟨3, ![1024, 256, 128]⟩ : Shape).Idx → EReal) (a1 : (⟨3, ![1024, 256, 32]⟩ : Shape).Idx → EReal)
    (a2 : (⟨2, ![1024, 256]⟩ : Shape).Idx → EReal)
    (a3 : (⟨2, ![128, 512]⟩ : Shape).Idx → EReal) (a4 : (⟨2, ![32, 512]⟩ : Shape).Idx → EReal)
    (a5 : (⟨1, ![512]⟩ : Shape).Idx → EReal) (a6 : (⟨2, ![512, 512]⟩ : Shape).Idx → EReal)
    (a7 : (⟨1, ![512]⟩ : Shape).Idx → EReal) (a8 : (⟨2, ![512, 1]⟩ : Shape).Idx → EReal) (n : Fin 1024) : EReal :=
  (∑ τ : Fin 256, a2 (ix2 n τ)) - trajScore a0 a1 a3 a4 a5 a6 a7 a8 n

/-- The importance weight of trajectory `n`: the softmax of the 1024 logits at `n`. -/
def trajWeight (a0 : (⟨3, ![1024, 256, 128]⟩ : Shape).Idx → EReal) (a1 : (⟨3, ![1024, 256, 32]⟩ : Shape).Idx → EReal)
    (a2 : (⟨2, ![1024, 256]⟩ : Shape).Idx → EReal)
    (a3 : (⟨2, ![128, 512]⟩ : Shape).Idx → EReal) (a4 : (⟨2, ![32, 512]⟩ : Shape).Idx → EReal)
    (a5 : (⟨1, ![512]⟩ : Shape).Idx → EReal) (a6 : (⟨2, ![512, 512]⟩ : Shape).Idx → EReal)
    (a7 : (⟨1, ![512]⟩ : Shape).Idx → EReal) (a8 : (⟨2, ![512, 1]⟩ : Shape).Idx → EReal) (n : Fin 1024) : EReal :=
  softmax (trajLogit a0 a1 a2 a3 a4 a5 a6 a7 a8) n

end ReplayScore

end
-- ==== Proof.KernelRun.lean ====
/-
  The kernel program's run with its two results named.

  The program is two calls among host reshapes.  Its run ends with every unscoped buffer at the contents obtained by
  following the program from the launch memory: the reshapes of the arguments, the first call's two columns, the second
  call's column, the two closing reshapes.  The statement below keeps, beside the unchanged arguments, what the two result
  buffers hold at the end; what those contents are, index by index, is read afterwards.
-/
import proofs.«177482_g71854802862086_cont_9to1_m_883_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the two result buffers hold the
    contents the program's last boundary names, and the arguments are as launched. -/
theorem run_results : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Outputs

end
-- ==== Proof.LibColumnSoftmax.lean ====
/-
  A softmax over a whole column, read at an index: the layout and reduction steps around it.

  General lemmas, at the ideal values where a reduction is meant, for literal rank and any extents:
  * `bcastTo_row_apply`: a row [1, b] broadcast (vector.broadcast) down to [a, b]; `row_apply`: a vector [b] viewed as a row
    [1, b]; `colRow_apply`: a column [b, 1] viewed as a row [1, b]; `colVec_apply`: a column [a, 1] viewed as a vector [a].
  * `fold_univ_equiv`: a fold of a commutative associative operation over a whole finite type, moved along a bijection.
  * a kernel's reduction of a column [n, 1] to one number, written as a view [1, n, 1] reduced over axes [1, 2] into [1]:
    `viewEquiv` (the view's entries are the n rows), `view_apply`, `unit_apply` ([1] viewed [1, 1, 1]), `viewMax_apply`
    (the maximum from minus infinity is the fold of max over the n rows), `viewSum_apply` (the sum is the sum over the n rows).
  * the host's reduction of a vector [n] to a scalar: `vecEquiv`, `hostMaxAll_apply` (a reduce-maximum over the one axis is
    the fold of max over the n entries from the initial value).
-/
import Idealize.ShloMosaic.PureOps.Ideal.Laws
import Idealize.ShloMosaic.Lib.Pipeline.Value
import Idealize.ShloMosaic.Lib.ValueIdx

noncomputable section

open scoped BigOperators

namespace Idealize.ShloMosaic.ColumnSoftmax

open Idealize.ShloMosaic Idealize.ShloMosaic.ValueIdx

/-! ## Layout steps -/

section Layout
variable {α : Type}

/-- A row [1, b] broadcast down a new first extent: entry (i, j) is the row's entry (0, j). -/
theorem bcastTo_row_apply {a b : Nat} (u : (⟨2, ![1, b]⟩ : Shape).Idx → α)
    (h : (⟨2, ![1, b]⟩ : Shape).Broadcasts ⟨2, ![a, b]⟩) (i : Fin a) (j : Fin b) :
    broadcastTo ⟨2, ![a, b]⟩ u h (ix2 i j) = u (ix2 0 j) :=
  broadcastTo_apply u h (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [b] viewed as a row [1, b]. -/
theorem row_apply {b : Nat} (x : (⟨1, ![b]⟩ : Shape).Idx → α) (h : (⟨1, ![b]⟩ : Shape).ShapeCasts ⟨2, ![1, b]⟩) (j : Fin b) :
    shapeCast ⟨2, ![1, b]⟩ x h (ix2 0 j) = x (ix1 j) :=
  shapeCast_apply x h (ix2 0 j) (ix1 j) (by
    rw [Shape.rowMajor_val_one, Shape.rowMajor_val_two]
    show j.val = 0 * b + j.val
    omega)

/-- A column [b, 1] viewed as a row [1, b]. -/
theorem colRow_apply {b : Nat} (x : (⟨2, ![b, 1]⟩ : Shape).Idx → α) (h : (⟨2, ![b, 1]⟩ : Shape).ShapeCasts ⟨2, ![1, b]⟩) (j : Fin b) :
    shapeCast ⟨2, ![1, b]⟩ x h (ix2 0 j) = x (ix2 j 0) :=
  shapeCast_apply x h (ix2 0 j) (ix2 j 0) (by
    rw [Shape.rowMajor_val_two, Shape.rowMajor_val_two]
    show j.val * 1 + 0 = 0 * b + j.val
    omega)

/-- A column [a, 1] viewed as a vector [a]. -/
theorem colVec_apply {a : Nat} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i 0) :=
  shapeCast_apply x h (ix1 i) (ix2 i 0) (by
    rw [Shape.rowMajor_val_two, Shape.rowMajor_val_one]
    show i.val * 1 + 0 = i.val
    omega)

end Layout

/-! ## Folds over a whole index type -/

/-- A fold of a commutative associative operation over every element of a finite type, moved along a bijection. -/
theorem fold_univ_equiv {α β γ : Type} [Fintype α] [Fintype β] (op : γ → γ → γ) [Std.Commutative op] [Std.Associative op]
    (e : α ≃ β) (b : γ) (f : β → γ) :
    (Finset.univ : Finset β).fold op b f = (Finset.univ : Finset α).fold op b (fun a => f (e a)) := by
  rw [← Finset.map_univ_equiv e, Finset.fold_map]
  rfl

/-! ## A column [n, 1] reduced to one number inside a kernel, through the view [1, n, 1] -/

/-- The entries of the [1, n, 1] view, in bijection with the n rows. -/
def viewEquiv (n : Nat) : Fin n ≃ (⟨3, ![1, n, 1]⟩ : Shape).Idx where
  toFun k := ix3 0 k 0
  invFun j := j 1
  left_inv _ := rfl
  right_inv j := by
    refine (funext fun d => Fin.ext ?_ : ix3 (0 : Fin 1) (j 1) (0 : Fin 1) = j)
    match d with
    | ⟨0, _⟩ => show 0 = (j 0).val; have : (j 0).val < 1 := (j 0).isLt; omega
    | ⟨1, _⟩ => rfl
    | ⟨2, _⟩ => show 0 = (j 2).val; have : (j 2).val < 1 := (j 2).isLt; omega

/-- The column [n, 1] viewed [1, n, 1]: entry (0, k, 0) is entry (k, 0). -/
theorem view_apply {α : Type} {n : Nat} (x : (⟨2, ![n, 1]⟩ : Shape).Idx → α)
    (h : (⟨2, ![n, 1]⟩ : Shape).ShapeCasts ⟨3, ![1, n, 1]⟩) (k : Fin n) :
    shapeCast ⟨3, ![1, n, 1]⟩ x h (viewEquiv n k) = x (ix2 k 0) :=
  shapeCast_apply x h (viewEquiv n k) (ix2 k 0) (by
    rw [Shape.rowMajor_val_two, Shape.rowMajor_val_three]
    show k.val * 1 + 0 = ((0 * n + k.val) * 1 + 0)
    omega)

/-- One number viewed [1, 1, 1]. -/
theorem unit_apply {α : Type} (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 0) :=
  shapeCast_apply x h j (ix1 0) (by
    rw [Shape.rowMajor_val_one, Shape.rowMajor_val_three]
    show 0 = (((j 0).val * 1 + (j 1).val) * 1 + (j 2).val)
    have : (j 0).val < 1 := (j 0).isLt
    have : (j 1).val < 1 := (j 1).isLt
    have : (j 2).val < 1 := (j 2).isLt
    omega)

/-- The maximum of every entry of the view, from minus infinity: the fold of max over the n rows. -/
theorem viewMax_apply {n : Nat} (v : FVec Ideal ⟨3, ![1, n, 1]⟩ .f32) (h : (⟨3, ![1, n, 1]⟩ : Shape).Reduces [1, 2] ⟨1, ![1]⟩)
    (hφ : FKind.Formats .f32) (hacc : (0xFF800000#32 : BitVec 32) = 0xFF800000#32) (j : (⟨1, ![1]⟩ : Shape).Idx) :
    multiReduction .maximumf [1, 2] ⟨1, ![1]⟩ v 0xFF800000#32 h hφ hacc j
      = (Finset.univ : Finset (Fin n)).fold max (Ideal.ofBits .f32 0xFF800000#32) (fun k => v (viewEquiv n k)) := by
  refine (multiReduction_maximumf_eq_fold v _ h hφ hacc j).trans ?_
  rw [Finset.filter_true_of_mem fun i _ => funext fun d => Fin.ext (by
    have h1 := (h.drop i d).isLt
    have h2 := (j d).isLt
    have h3 : (⟨1, ![1]⟩ : Shape).size d = 1 := by match d with | ⟨0, _⟩ => rfl
    omega)]
  exact fold_univ_equiv (FloatOps.maximumf (F := Ideal) (φ := .f32)) (viewEquiv n) _ v

/-- The sum of every entry of the view: the sum over the n rows. -/
theorem viewSum_apply {n : Nat} (v : FVec Ideal ⟨3, ![1, n, 1]⟩ .f32) (h : (⟨3, ![1, n, 1]⟩ : Shape).Reduces [1, 2] ⟨1, ![1]⟩)
    (hφ : FKind.Formats .f32) (hacc : (0x00000000#32 : BitVec 32) = 0x00000000#32) (j : (⟨1, ![1]⟩ : Shape).Idx) :
    multiReduction .add [1, 2] ⟨1, ![1]⟩ v 0x00000000#32 h hφ hacc j = ∑ k : Fin n, v (viewEquiv n k) :=
  (Ideal.multiReduction_add_total v _ h (fun b => by match b with | ⟨0, _⟩ => rfl) hφ hacc j).trans
    (Equiv.sum_comp (viewEquiv n) v).symm

/-! ## A vector [n] reduced to a scalar on the host -/

/-- The entries of a vector of n, in bijection with its n positions. -/
def vecEquiv (n : Nat) : Fin n ≃ (⟨1, ![n]⟩ : Shape).Idx where
  toFun k := ix1 k
  invFun j := j 0
  left_inv _ := rfl
  right_inv j := (eq_ix1 j).symm

/-- The host's reduce-maximum of a vector over its one axis: the fold of max over the n entries from the initial value. -/
theorem hostMaxAll_apply {n : Nat} {u : Shape} (x : (⟨1, ![n]⟩ : Shape).Idx → EReal) (init : u.Idx → EReal)
    (h' : (⟨1, ![n]⟩ : Shape).ReducesTo [0] ⟨0, ![]⟩) (hu : 0 < u.numel) (j : (⟨0, ![]⟩ : Shape).Idx) :
    Host.reduce (FloatOps.maximumf (F := Ideal) (φ := .f32)) x init h' hu j
      = (Finset.univ : Finset (Fin n)).fold max (init (Shape.Idx.first hu)) (fun k => x (ix1 k)) := by
  rw [Host.reduce_eq_fold, Finset.filter_true_of_mem fun i _ => funext fun d => d.elim0]
  exact fold_univ_equiv (FloatOps.maximumf (F := Ideal) (φ := .f32)) (vecEquiv n) _ x

end Idealize.ShloMosaic.ColumnSoftmax

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibRowStats.lean ====
/-
  Reading a row statistic AT AN INDEX, and two spellings of "centre, then scale".

  A normalization of whole rows first adds up each row — as partial sums over one axis of a rank-3 arrangement of the row,
  then over the other — and then shifts and scales every entry by numbers that depend on the row alone. The facts here,
  over shapes of literal rank and any extents:

  * a sum over the MIDDLE axis of a rank-3 vector, at (a, c), is the sum over the middle coordinate (`midSum3_apply`);
  * the cast [a, b] → [a, 1, b] and the broadcast [a, 1, 1] → [a, b, c] read at an index (`cast_mid3_apply`,
    `bcast_unit3_apply`);
  * a double sum over `Fin m` and `Fin n` is one sum over the `m * n` row-major positions j, read at (j / n, j % n)
    (`sum_flat`); so two different two-step summations of one row are the same number;
  * on the extended reals, for REAL x, m and r:  x · r + (0 − m) · r = (x − m) · r  (`shift_eq_centred`) — the law is
    distributivity, which fails at the infinities, so it is stated for reals;
  * the reciprocal square root of a positive real is a real (`rsqrt_pos_real`), and so is the whole scale
    (max (q·c − (s·c)·(s·c)) 0 + ε)^(−1/2) of real s, q, c and real ε > 0 (`scale_real`).
-/
import Idealize.ShloMosaic.PureOps.Ideal.Laws
import Idealize.ShloMosaic.Lib.Pipeline.Value
import Idealize.ShloMosaic.Lib.ValueIdx

noncomputable section

open scoped BigOperators

namespace Idealize.ShloMosaic.RowStats

open Idealize.ShloMosaic Idealize.ShloMosaic.ValueIdx

/-! ## A sum over the middle axis -/

/-- A sum over the middle axis of a rank-3 vector, at (a, c): the sum over the middle coordinate. -/
theorem midSum3_apply {n0 n1 n2 : Nat} {φ : FTy} (v : FVec Ideal ⟨3, ![n0, n1, n2]⟩ φ) (acc : BitVec φ.bits)
    (h : (⟨3, ![n0, n1, n2]⟩ : Shape).Reduces [1] ⟨2, ![n0, n2]⟩) (hφ : FKind.Formats φ) (hacc : acc = FKind.add.neutral φ hφ)
    (a : Fin n0) (c : Fin n2) :
    multiReduction .add [1] ⟨2, ![n0, n2]⟩ v acc h hφ hacc (ix2 a c) = ∑ k : Fin n1, v (ix3 a k c) :=
  (Ideal.multiReduction_add_single v acc h hφ hacc (ix2 a c)).trans
    (Finset.sum_congr rfl fun k _ => congrArg v (funext fun d => Fin.ext (by
      match d with | ⟨0, _⟩ => rfl | ⟨1, _⟩ => rfl | ⟨2, _⟩ => rfl)))

/-! ## Layout -/

section Layout
variable {α : Type}

/-- [a, b] viewed [a, 1, b]: entry (i, 0, j) is entry (i, j). -/
theorem cast_mid3_apply {a b : Nat} (v : (⟨2, ![a, b]⟩ : Shape).Idx → α) (h : (⟨2, ![a, b]⟩ : Shape).ShapeCasts ⟨3, ![a, 1, b]⟩)
    (i : Fin a) (z : Fin 1) (j : Fin b) : shapeCast ⟨3, ![a, 1, b]⟩ v h (ix3 i z j) = v (ix2 i j) :=
  shapeCast_apply v h (ix3 i z j) (ix2 i j) (by
    rw [Shape.rowMajor_val_two, Shape.rowMajor_val_three]
    show i.val * b + j.val = (i.val * 1 + z.val) * b + j.val
    rw [Fin.val_eq_zero z, Nat.mul_one, Nat.add_zero])

/-- A [a, 1, 1] vector broadcast to [a, b, c]: entry (i, j, k) is entry (i, 0, 0). -/
theorem bcast_unit3_apply {a b c : Nat} (u : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ u h (ix3 i j k) = u (ix3 i 0 0) :=
  broadcastTo_apply u h (ix3 i j k) (ix3 i 0 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl]
    | ⟨2, _⟩ => show 0 = if (1 : Nat) = 1 then 0 else k.val; rw [if_pos rfl])

end Layout

/-! ## One row, summed in two steps -/

/-- A double sum over `Fin m` and `Fin n` is the sum over the `m * n` row-major positions. -/
theorem sum_flat {M : Type} [AddCommMonoid M] {m n N : Nat} (hN : N = m * n) (hn : 0 < n) (g : Fin m → Fin n → M) :
    ∑ a : Fin m, ∑ b : Fin n, g a b
      = ∑ j : Fin N, g ⟨j.val / n, Nat.div_lt_of_lt_mul (lt_of_lt_of_eq j.isLt (hN.trans (Nat.mul_comm m n)))⟩
          ⟨j.val % n, Nat.mod_lt _ hn⟩ := by
  subst hN
  rw [← Fintype.sum_prod_type']
  exact (Equiv.sum_comp finProdFinEquiv.symm (fun p : Fin m × Fin n => g p.1 p.2)).symm

/-- A finite sum of reals, on the extended reals, is a real. -/
theorem sum_real {ι : Type} (t : Finset ι) (f : ι → EReal) (h : ∀ i, ∃ v : ℝ, f i = (v : EReal)) :
    ∃ v : ℝ, ∑ i ∈ t, f i = (v : EReal) := by
  classical
  choose g hg using h
  refine ⟨∑ i ∈ t, g i, ?_⟩
  rw [Finset.sum_congr rfl (fun i _ => hg i)]
  induction t using Finset.induction_on with
  | empty => simp
  | insert a s ha ih => rw [Finset.sum_insert ha, Finset.sum_insert ha, EReal.coe_add, ih]

/-! ## Centre then scale, in two spellings -/

/-- For real x, m and r:  x · r + (0 − m) · r = (x − m) · r  on the extended reals. -/
theorem shift_eq_centred (x m r : ℝ) :
    (x : EReal) * (r : EReal) + ((0 : EReal) - (m : EReal)) * (r : EReal) = ((x : EReal) - (m : EReal)) * (r : EReal) := by
  rw [← EReal.coe_zero, ← EReal.coe_sub, ← EReal.coe_sub, ← EReal.coe_mul, ← EReal.coe_mul, ← EReal.coe_mul, ← EReal.coe_add]
  congr 1
  ring

/-- The reciprocal square root of a positive real is a real. -/
theorem rsqrt_pos_real (r : ℝ) (hr : 0 < r) : Ideal.rsqrt (r : EReal) = (((Real.sqrt r)⁻¹ : ℝ) : EReal) := by
  rw [Ideal.rsqrt_coe, if_neg (not_lt.mpr hr.le), if_neg hr.ne']

/-- The larger of two reals, on the extended reals. -/
theorem coe_max (a b : ℝ) : max (a : EReal) (b : EReal) = ((max a b : ℝ) : EReal) :=
  (EReal.coe_strictMono.monotone.map_max).symm

/-- The scale of a row — (max (q·c − (s·c)·(s·c)) 0 + ε)^(−1/2) — is a real when s, q, c are reals and ε is a positive real. -/
theorem scale_real (s q c e : ℝ) (he : 0 < e) :
    ∃ r : ℝ, Ideal.rsqrt (max ((q : EReal) * (c : EReal) - ((s : EReal) * (c : EReal)) * ((s : EReal) * (c : EReal))) 0 + (e : EReal)) = (r : EReal) := by
  refine ⟨(Real.sqrt (max (q * c - (s * c) * (s * c)) 0 + e))⁻¹, ?_⟩
  rw [← EReal.coe_mul, ← EReal.coe_mul, ← EReal.coe_mul, ← EReal.coe_sub, ← EReal.coe_zero, coe_max, ← EReal.coe_add]
  exact rsqrt_pos_real _ (by have := le_max_right (q * c - (s * c) * (s * c)) 0; linarith)

end Idealize.ShloMosaic.RowStats

end
-- ==== Proof.LibRowPairs.lean ====
/-
  Layout operations of a block that pairs every row of one matrix with every row of another, READ AT AN INDEX, for
  any extents and any element type:

  * a matrix [a, c] given a middle unit axis, [a, 1, c], and that repeated along the middle axis to [a, b, c];
  * a stack of one matrix [1, b, c] repeated along the first axis to [a, b, c];
  * the pairs (i, j) of an [a, b, c] array laid out as the rows i · b + j of an [n, c] matrix (n = a · b), and back.
-/
import Idealize.ShloMosaic.Lib.Pipeline.Value
import Idealize.ShloMosaic.Lib.ValueIdx

noncomputable section

namespace Idealize.ShloMosaic.RowPairs

open Idealize.ShloMosaic Idealize.ShloMosaic.ValueIdx

variable {α : Type}

/-- A matrix [a, c] given a middle unit axis reads, at (i, z, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An [a, 1, c] array repeated along its middle axis reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array repeated along its first axis reads, at (i, j, k), the operand at (0, j, k). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The pairs (i, j) of an [a, b, c] array laid out as rows of an [n, c] matrix: row r = i · b + j reads the pair. -/
theorem shapeCast_pairs_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- The rows of an [n, c] matrix read back as pairs: the pair (i, j) reads row r = i · b + j. -/
theorem shapeCast_rows_pairs_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.RowPairs

end
-- ==== Proof.BlockScore.lean ====
/-
  What one grid point of the scoring kernel computes, read at an index.

  The point's state block holds 2048 consecutive steps, that is 8 whole trajectories of 256 steps: step τ of the block's
  trajectory b is the block's row 256·b + τ.  The body forms the weighted features of all 2048 rows, views the
  [2048, 512] array as [8, 256, 512], adds over the 256 steps and then over the 512 features: entry (b, 0) of its first
  result is the features-outermost score of trajectory b, and entry (b, 0) of the second is that trajectory's summed
  reward less this score.  A change of float format is the identity on the extended reals, a matrix product into a zero
  accumulator is a plain sum of products, and a sum along one axis is a sum over that axis's coordinate.
-/
import proofs.«177482_g71854802862086_cont_9to1_m_883_2_alg».proof.Proof.Gen.KernelIdeal.Skeleton
import proofs.«177482_g71854802862086_cont_9to1_m_883_2_alg».proof.Proof.Spec
import proofs.«177482_g71854802862086_cont_9to1_m_883_2_alg».proof.Proof.LibColumnSoftmax
import proofs.«177482_g71854802862086_cont_9to1_m_883_2_alg».proof.Proof.LibPlainMatmul
import proofs.«177482_g71854802862086_cont_9to1_m_883_2_alg».proof.Proof.LibKeepdims
import proofs.«177482_g71854802862086_cont_9to1_m_883_2_alg».proof.Proof.LibRowStats
import proofs.«177482_g71854802862086_cont_9to1_m_883_2_alg».proof.Proof.LibRowPairs
import Idealize.ShloMosaic.Lib.Pipeline.Value
import Idealize.ShloMosaic.Lib.ValueIdx
import Idealize.ShloMosaic.PureOps.Ideal.Laws

noncomputable section

open scoped BigOperators

namespace Cert.KernelIdeal.BlockScore

open Idealize.ShloMosaic Idealize.ShloMosaic.ValueIdx Idealize.ShloMosaic.ColumnSoftmax Cert.KernelIdeal Cert.KernelIdeal.Gen ReplayScore

variable [Cert.KernelIdeal.Facts]
open Cert.KernelIdeal.Facts₀ Cert.KernelIdeal.Facts

theorem tanh_apply {s : Shape} {φ : FTy} (v : FVec Ideal s φ) (i : s.Idx) : tanh v i = Ideal.tanh (v i) := rfl

/-- Row 256·b + τ of a block: step τ of the block's trajectory b. -/
abbrev stepRow (b : Fin 8) (τ : Fin 256) : Fin 2048 := ⟨b.val * 256 + τ.val, by have := b.isLt; have := τ.isLt; omega⟩

/-- The [2048, 512] array viewed [8, 256, 512]: entry (b, τ, c) is entry (256·b + τ, c). -/
theorem unflatten_apply {α : Type} (x : S2048x512.Idx → α) (h : S2048x512.ShapeCasts S8x256x512) (b : Fin 8) (τ : Fin 256)
    (c : Fin 512) : shapeCast S8x256x512 x h (ix3 b τ c) = x (ix2 (stepRow b τ) c) :=
  RowPairs.shapeCast_rows_pairs_apply x h b τ c (stepRow b τ) rfl

/-- A sum over the second axis of an f32 matrix from the zero word, at a: the sum over the column coordinate. -/
theorem rowSum_apply {n0 n1 : Nat} (v : FVec Ideal ⟨2, ![n0, n1]⟩ .f32) (h : (⟨2, ![n0, n1]⟩ : Shape).Reduces [1] ⟨1, ![n0]⟩)
    (hφ : FKind.Formats .f32) (hacc : (0x00000000#32 : BitVec 32) = 0x00000000#32) (a : Fin n0) :
    multiReduction .add [1] ⟨1, ![n0]⟩ v 0x00000000#32 h hφ hacc (ix1 a) = ∑ c : Fin n1, v (ix2 a c) :=
  Keepdims.rowSum2_apply v _ h hφ hacc a

/-- A sum over the middle axis of an f32 rank-3 vector from the zero word, at (a, c): the sum over the middle coordinate. -/
theorem midSum_apply {n0 n1 n2 : Nat} (v : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (a : Fin n0) (c : Fin n2) :
    multiReduction .add [1] ⟨2, ![n0, n2]⟩ v 0x00000000#32 h hφ hacc (ix2 a c) = ∑ k : Fin n1, v (ix3 a k c) :=
  RowStats.midSum3_apply v _ h hφ hacc a c

theorem dot1_eq : dot_S2048x128_S128x512_S2048x512_1_0_0_1_n_n = DotDims.plain 2048 128 512 := rfl
theorem dot2_eq : dot_S2048x32_S32x512_S2048x512_1_0_0_1_n_n = DotDims.plain 2048 32 512 := rfl
theorem dot3_eq : dot_S2048x512_S512x512_S2048x512_1_0_0_1_n_n = DotDims.plain 2048 512 512 := rfl

/-- The body's first result at (b, 0): the score of the block's trajectory b, features outermost. -/
theorem score_apply (x0 : Vec Ideal S2048x128 .f32) (x1 : Vec Ideal S2048x32 .f32) (x3 : Vec Ideal S128x512 .f32)
    (x4 : Vec Ideal S32x512 .f32) (x6 : Vec Ideal S512x512 .f32) (x5 x7 x8 : Vec Ideal S1x512 .f32) (b : Fin 8) (z : Fin 1) :
    k0_pay2 (F := Ideal) x0 x1 x3 x4 x6 x5 x7 x8 (ix2 b z)
      = scoreByFeature (fun τ k => x0 (ix2 (stepRow b τ) k)) (fun τ k => x1 (ix2 (stepRow b τ) k))
          (fun k h => x3 (ix2 k h)) (fun k h => x4 (ix2 k h)) (fun h => x5 (ix2 0 h)) (fun k h => x6 (ix2 k h))
          (fun h => x7 (ix2 0 h)) (fun h => x8 (ix2 0 h)) := by
  unfold k0_pay2 scoreByFeature
  dsimp only
  rw [Keepdims.cast_col_apply, rowSum_apply]
  refine Finset.sum_congr rfl fun c _ => ?_
  rw [midSum_apply]
  refine Finset.sum_congr rfl fun τ _ => ?_
  rw [unflatten_apply, mulf_apply, tanh_apply, addf_apply, bcastTo_row_apply, bcastTo_row_apply, dot3_eq,
    PlainMatmul.plainMatmul_apply]
  unfold weighted layer2
  simp only [shapeCast_self]
  refine congrArg₂ (· * ·) (congrArg Ideal.tanh (congrArg₂ (· + ·) (Finset.sum_congr rfl fun k _ => ?_) rfl)) rfl
  refine congrArg₂ (· * ·) ?_ rfl
  show tanh (F := Ideal) (s := S2048x512) (φ := .f32) _ (ix2 (stepRow b τ) k) = _
  rw [tanh_apply, addf_apply, addf_apply, bcastTo_row_apply, dot1_eq, dot2_eq, PlainMatmul.plainMatmul_apply,
    PlainMatmul.plainMatmul_apply]
  rfl

/-- The body's second result at (b, 0): the block's summed reward of trajectory b less the first result there. -/
theorem logit_apply (v34 : FVec Ideal S8x1 .f32) (x2 : Vec Ideal S8x256 .f32) (b : Fin 8) (z : Fin 1) :
    k0_pay1 (F := Ideal) v34 x2 (ix2 b z) = (∑ τ : Fin 256, x2 (ix2 b τ)) - v34 (ix2 b z) := by
  unfold k0_pay1
  dsimp only
  rw [subf_apply, Keepdims.cast_col_apply, rowSum_apply]

end Cert.KernelIdeal.BlockScore

end
-- ==== Proof.ScoreArrays.lean ====
/-
  From the scoring kernel's blocks to its two result columns.

  Grid point t of 128 takes rows 2048·t … 2048·t + 2047 of the flattened states and actions, rows 8·t … 8·t + 7 of the
  rewards, the whole weight arrays, and writes rows 8·t … 8·t + 7 of both result columns.  Row 256·b + τ of point t's
  state block is row 256·(8·t + b) + τ of the flattened array, so entry (b, 0) of what the point writes is the score (or
  the logit) of trajectory 8·t + b read off the whole arrays; the 128 blocks tile the columns, so the columns end as
  these functions of the arrays the call was entered with.
-/
import proofs.«177482_g71854802862086_cont_9to1_m_883_2_alg».proof.Proof.Gen.KernelIdeal.Frame
import proofs.«177482_g71854802862086_cont_9to1_m_883_2_alg».proof.Proof.Spec
import proofs.«177482_g71854802862086_cont_9to1_m_883_2_alg».proof.Proof.BlockScore
import Idealize.ShloMosaic.Lib.Pipeline.Value
import Idealize.ShloMosaic.Lib.ValueIdx

set_option maxRecDepth 16384

noncomputable section

open scoped BigOperators

namespace Cert.KernelIdeal.ScoreArrays

open Idealize.ShloMosaic Idealize.ShloMosaic.TcCoe Idealize.ShloMosaic.ValueIdx Idealize.SL.Sem
open Cert.KernelIdeal Cert.KernelIdeal.Gen ReplayScore Cert.KernelIdeal.BlockScore
open Idealize.ShloMosaic.Pipeline (Dat Cfg Window)

variable (V : (c : Dev nD) → (b : Ref sig .tc) → Buf (Elt Ideal) ((c : Thread nD τ).loc b))

/-- Row 256·n + τ of the flattened arrays: step τ of trajectory n. -/
abbrev flatRow (n : Fin 1024) (τ : Fin 256) : Fin 262144 := ⟨n.val * 256 + τ.val, by have := n.isLt; have := τ.isLt; omega⟩

/-- The score of trajectory n, features outermost, read off the flattened arrays and the row-shaped weights. -/
def scoreOf (S : S262144x128.Idx → EReal) (A : S262144x32.Idx → EReal) (W1 : S128x512.Idx → EReal) (W2 : S32x512.Idx → EReal)
    (b1 : S1x512.Idx → EReal) (W3 : S512x512.Idx → EReal) (b3 wo : S1x512.Idx → EReal) (n : Fin 1024) : EReal :=
  scoreByFeature (fun τ k => S (ix2 (flatRow n τ) k)) (fun τ k => A (ix2 (flatRow n τ) k)) (fun k h => W1 (ix2 k h))
    (fun k h => W2 (ix2 k h)) (fun h => b1 (ix2 0 h)) (fun k h => W3 (ix2 k h)) (fun h => b3 (ix2 0 h)) (fun h => wo (ix2 0 h))

/-- The score column the call leaves, from the arrays it was entered with. -/
def scoreCol (c : Dev nD) : S1024x1.Idx → EReal := fun i =>
  scoreOf (V c main_v0) (V c main_v1) (V c main_arg3) (V c main_arg4) (V c main_v2) (V c main_arg6) (V c main_v3) (V c main_v4)
    ⟨(i 0).val, (i 0).isLt⟩

/-- The summed reward of trajectory n. -/
def rewardOf (R : S1024x256.Idx → EReal) (n : Fin 1024) : EReal := ∑ τ : Fin 256, R (ix2 n τ)

/-- The summed reward of a reward block's trajectory b. -/
def rewardOfBlock (R : S8x256.Idx → EReal) (b : Fin 8) : EReal := ∑ τ : Fin 256, R (ix2 b τ)

/-- The logit column the call leaves: the summed reward of the row's trajectory less its score. -/
def logitCol (c : Dev nD) : S1024x1.Idx → EReal := fun i =>
  rewardOf (V c main_arg2) ⟨(i 0).val, (i 0).isLt⟩ - scoreCol V c i

theorem hz : (![0, 0] : Fin 2 → Nat) = fun _ => 0 := funext fun a => by fin_cases a <;> rfl

/-- The printed index maps over the grid: the three row-blocked inputs and the two outputs move with the point, the
    weights stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem N_eq : cfg0.N = 128 := by decide

/-- Entry (b, 0) of point t's score block, read off the arrays: the score of trajectory 8·t + b. -/
theorem blockScore_eq (c : Dev nD) (t : Fin cfg0.N) (b : Fin 8) (z : Fin 1) (n : Fin 1024) (hn : n.val = t.val * 8 + b.val) :
    k0_pay2 (F := Ideal) (iblk0 V c 0 t) (iblk0 V c 1 t) (iblk0 V c 3 t) (iblk0 V c 4 t) (iblk0 V c 6 t) (iblk0 V c 5 t)
        (iblk0 V c 7 t) (iblk0 V c 8 t) (ix2 b z)
      = scoreOf (V c main_v0) (V c main_v1) (V c main_arg3) (V c main_arg4) (V c main_v2) (V c main_arg6) (V c main_v3)
          (V c main_v4) n := by
  refine (score_apply (iblk0 V c 0 t) (iblk0 V c 1 t) (iblk0 V c 3 t) (iblk0 V c 4 t) (iblk0 V c 6 t) (iblk0 V c 5 t)
    (iblk0 V c 7 t) (iblk0 V c 8 t) b z).trans ?_
  obtain ⟨e00, e01, e10, e11, e20, e21, e30, e31, e40, e41, e50, e51, e60, e61, e70, e71, e80, e81, -⟩ := idx_facts t
  unfold scoreOf
  have h0 : ∀ (τ : Fin 256) (k : Fin 128), iblk0 V c 0 t (ix2 (stepRow b τ) k) = V c main_v0 (ix2 (flatRow n τ) k) := fun τ k => by
    show V c main_v0 (((cfg0.win 0).blk t).view.emb (ix2 (stepRow b τ) k)) = _
    refine congrArg (V c main_v0) (funext fun a => Fin.ext ?_)
    match a with
    | ⟨0, _⟩ => show win0_0.index t (0 : Fin 2) * 2048 + 1 * (b.val * 256 + τ.val) = n.val * 256 + τ.val; omega
    | ⟨1, _⟩ => show win0_0.index t (1 : Fin 2) * 128 + 1 * k.val = k.val; omega
  have h1 : ∀ (τ : Fin 256) (k : Fin 32), iblk0 V c 1 t (ix2 (stepRow b τ) k) = V c main_v1 (ix2 (flatRow n τ) k) := fun τ k => by
    show V c main_v1 (((cfg0.win 1).blk t).view.emb (ix2 (stepRow b τ) k)) = _
    refine congrArg (V c main_v1) (funext fun a => Fin.ext ?_)
    match a with
    | ⟨0, _⟩ => show win0_1.index t (0 : Fin 2) * 2048 + 1 * (b.val * 256 + τ.val) = n.val * 256 + τ.val; omega
    | ⟨1, _⟩ => show win0_1.index t (1 : Fin 2) * 32 + 1 * k.val = k.val; omega
  have h3 : ∀ (k : Fin 128) (h : Fin 512), iblk0 V c 3 t (ix2 k h) = V c main_arg3 (ix2 k h) := fun k h => by
    show V c main_arg3 (((cfg0.win 3).blk t).view.emb (ix2 k h)) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 512 + 1 * h.val = h.val; omega
  have h4 : ∀ (k : Fin 32) (h : Fin 512), iblk0 V c 4 t (ix2 k h) = V c main_arg4 (ix2 k h) := fun k h => by
    show V c main_arg4 (((cfg0.win 4).blk t).view.emb (ix2 k h)) = _
    refine congrArg (V c main_arg4) (funext fun a => Fin.ext ?_)
    match a with
    | ⟨0, _⟩ => show win0_4.index t (0 : Fin 2) * 32 + 1 * k.val = k.val; omega
    | ⟨1, _⟩ => show win0_4.index t (1 : Fin 2) * 512 + 1 * h.val = h.val; omega
  have h5 : ∀ (h : Fin 512), iblk0 V c 5 t (ix2 0 h) = V c main_v2 (ix2 0 h) := fun h => by
    show V c main_v2 (((cfg0.win 5).blk t).view.emb (ix2 0 h)) = _
    refine congrArg (V c main_v2) (funext fun a => Fin.ext ?_)
    match a with
    | ⟨0, _⟩ => show win0_5.index t (0 : Fin 2) * 1 + 1 * 0 = 0; omega
    | ⟨1, _⟩ => show win0_5.index t (1 : Fin 2) * 512 + 1 * h.val = h.val; omega
  have h6 : ∀ (k : Fin 512) (h : Fin 512), iblk0 V c 6 t (ix2 k h) = V c main_arg6 (ix2 k h) := fun k h => by
    show V c main_arg6 (((cfg0.win 6).blk t).view.emb (ix2 k h)) = _
    refine congrArg (V c main_arg6) (funext fun a => Fin.ext ?_)
    match a with
    | ⟨0, _⟩ => show win0_6.index t (0 : Fin 2) * 512 + 1 * k.val = k.val; omega
    | ⟨1, _⟩ => show win0_6.index t (1 : Fin 2) * 512 + 1 * h.val = h.val; omega
  have h7 : ∀ (h : Fin 512), iblk0 V c 7 t (ix2 0 h) = V c main_v3 (ix2 0 h) := fun h => by
    show V c main_v3 (((cfg0.win 7).blk t).view.emb (ix2 0 h)) = _
    refine congrArg (V c main_v3) (funext fun a => Fin.ext ?_)
    match a with
    | ⟨0, _⟩ => show win0_7.index t (0 : Fin 2) * 1 + 1 * 0 = 0; omega
    | ⟨1, _⟩ => show win0_7.index t (1 : Fin 2) * 512 + 1 * h.val = h.val; omega
  have h8 : ∀ (h : Fin 512), iblk0 V c 8 t (ix2 0 h) = V c main_v4 (ix2 0 h) := fun h => by
    show V c main_v4 (((cfg0.win 8).blk t).view.emb (ix2 0 h)) = _
    refine congrArg (V c main_v4) (funext fun a => Fin.ext ?_)
    match a with
    | ⟨0, _⟩ => show win0_8.index t (0 : Fin 2) * 1 + 1 * 0 = 0; omega
    | ⟨1, _⟩ => show win0_8.index t (1 : Fin 2) * 512 + 1 * h.val = h.val; omega
  simp only [h0, h1, h3, h4, h5, h6, h7, h8]

/-- The summed reward of the block's trajectory b at point t is that of trajectory 8·t + b. -/
theorem blockReward_eq (c : Dev nD) (t : Fin cfg0.N) (b : Fin 8) (n : Fin 1024) (hn : n.val = t.val * 8 + b.val) :
    rewardOfBlock (iblk0 V c 2 t) b = rewardOf (V c main_arg2) n := by
  obtain ⟨-, -, -, -, e20, e21, -⟩ := idx_facts t
  unfold rewardOfBlock rewardOf
  refine Finset.sum_congr rfl fun τ _ => ?_
  show V c main_arg2 (((cfg0.win 2).blk t).view.emb (ix2 b τ)) = _
  refine congrArg (V c main_arg2) (funext fun a => Fin.ext ?_)
  match a with
  | ⟨0, _⟩ => show win0_2.index t (0 : Fin 2) * 8 + 1 * b.val = n.val; omega
  | ⟨1, _⟩ => show win0_2.index t (1 : Fin 2) * 256 + 1 * τ.val = τ.val; omega

/-- What point t writes back to the score column is block t of the column's function. -/
theorem flushedScore_eq (c : Dev nD) (t : Fin cfg0.N) :
    (dat0 V c).flushed 10 t = ((cfg0.win 10).blk t).view.read (Elt Ideal) (scoreCol V c) := by
  show (cfg0.win 10).cut (grid0.coords t) ((dat0 V c).after 10 t) = _
  rw [after0_10]
  unfold out0_10
  rw [View.canon_unit_zero hz]
  simp only [View.ld_unit_zero (S := S2048x128) hz, View.ld_unit_zero (S := S2048x32) hz, View.ld_unit_zero (S := S128x512) hz,
    View.ld_unit_zero (S := S32x512) hz, View.ld_unit_zero (S := S512x512) hz, View.ld_unit_zero (S := S1x512) hz]
  funext y
  obtain ⟨b, z, rfl⟩ : ∃ (b : Fin 8) (z : Fin 1), y = ix2 b z := ⟨y 0, y 1, eq_ix2 y⟩
  obtain ⟨-, -, -, -, -, -, -, -, -, -, -, -, -, -, -, -, -, -, -, -, eA0, eA1⟩ := idx_facts t
  have ht : t.val < 128 := lt_of_lt_of_eq t.isLt N_eq
  have hb := b.isLt
  refine (blockScore_eq V c t b z ⟨t.val * 8 + b.val, by omega⟩ rfl).trans ?_
  show _ = scoreCol V c (((cfg0.win 10).blk t).view.emb (ix2 b z))
  unfold scoreCol
  refine congrArg _ (Fin.ext ?_)
  show t.val * 8 + b.val = win0_10.index t (0 : Fin 2) * 8 + 1 * b.val
  omega

/-- What point t writes back to the logit column is block t of the column's function. -/
theorem flushedLogit_eq (c : Dev nD) (t : Fin cfg0.N) :
    (dat0 V c).flushed 9 t = ((cfg0.win 9).blk t).view.read (Elt Ideal) (logitCol V c) := by
  show (cfg0.win 9).cut (grid0.coords t) ((dat0 V c).after 9 t) = _
  rw [after0_9]
  unfold out0_9
  rw [View.canon_unit_zero hz]
  simp only [View.ld_unit_zero (S := S2048x128) hz, View.ld_unit_zero (S := S2048x32) hz, View.ld_unit_zero (S := S128x512) hz,
    View.ld_unit_zero (S := S32x512) hz, View.ld_unit_zero (S := S512x512) hz, View.ld_unit_zero (S := S1x512) hz,
    View.ld_unit_zero (S := S8x256) hz]
  funext y
  obtain ⟨b, z, rfl⟩ : ∃ (b : Fin 8) (z : Fin 1), y = ix2 b z := ⟨y 0, y 1, eq_ix2 y⟩
  obtain ⟨-, -, -, -, -, -, -, -, -, -, -, -, -, -, -, -, -, -, e90, e91, -⟩ := idx_facts t
  have ht : t.val < 128 := lt_of_lt_of_eq t.isLt N_eq
  have hb := b.isLt
  refine (logit_apply _ (iblk0 V c 2 t) b z).trans ?_
  show rewardOfBlock (iblk0 V c 2 t) b - _ = logitCol V c (((cfg0.win 9).blk t).view.emb (ix2 b z))
  rw [blockReward_eq V c t b ⟨t.val * 8 + b.val, by omega⟩ rfl, blockScore_eq V c t b z ⟨t.val * 8 + b.val, by omega⟩ rfl]
  unfold logitCol scoreCol
  have e : (⟨t.val * 8 + b.val, by omega⟩ : Fin 1024)
      = ⟨((((cfg0.win 9).blk t).view.emb (ix2 b z)) 0).val, ((((cfg0.win 9).blk t).view.emb (ix2 b z)) 0).isLt⟩ :=
    Fin.ext (by show t.val * 8 + b.val = win0_9.index t (0 : Fin 2) * 8 + 1 * b.val; omega)
  rw [e]

/-- An index of a result column is in point t's block iff each coordinate is in the block's range on its axis. -/
theorem mem_blk9 (t : Fin cfg0.N) (i : S1024x1.Idx) :
    i ∈ ((cfg0.win 9).blk t).view.set ↔ ∀ a : Fin 2, win0_9.index t a * S8x1.size a ≤ (i a).val ∧ (i a).val < win0_9.index t a * S8x1.size a + S8x1.size a := by
  show i ∈ ((View.whole main_v5_0).slice (win0_9.rect t)).set ↔ _
  rw [View.set_slice_whole, Rect.mem_set_unit]
  exact Iff.rfl

theorem mem_blk10 (t : Fin cfg0.N) (i : S1024x1.Idx) :
    i ∈ ((cfg0.win 10).blk t).view.set ↔ ∀ a : Fin 2, win0_10.index t a * S8x1.size a ≤ (i a).val ∧ (i a).val < win0_10.index t a * S8x1.size a + S8x1.size a := by
  show i ∈ ((View.whole main_v5_1).slice (win0_10.rect t)).set ↔ _
  rw [View.set_slice_whole, Rect.mem_set_unit]
  exact Iff.rfl

/-- Row r of a result column is written by point r / 8. -/
theorem cover9 (i : S1024x1.Idx) : ∃ t : Fin cfg0.N, (cfg0.win 9).flush t = true ∧ i ∈ ((cfg0.win 9).blk t).view.set := by
  have h0 : (i 0).val < 1024 := (i 0).isLt
  have h1 : (i 1).val < 1 := (i 1).isLt
  let t : Fin cfg0.N := ⟨(i 0).val / 8, by rw [N_eq]; omega⟩
  obtain ⟨-, -, -, -, -, -, -, -, -, -, -, -, -, -, -, -, -, -, e90, e91, -⟩ := idx_facts t
  have tv : t.val = (i 0).val / 8 := rfl
  refine ⟨t, flush0_9 t, (mem_blk9 t i).mpr fun a => ?_⟩
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 1 ≤ (i 1).val ∧ (i 1).val < win0_9.index t (1 : Fin 2) * 1 + 1; omega

theorem cover10 (i : S1024x1.Idx) : ∃ t : Fin cfg0.N, (cfg0.win 10).flush t = true ∧ i ∈ ((cfg0.win 10).blk t).view.set := by
  have h0 : (i 0).val < 1024 := (i 0).isLt
  have h1 : (i 1).val < 1 := (i 1).isLt
  let t : Fin cfg0.N := ⟨(i 0).val / 8, by rw [N_eq]; omega⟩
  obtain ⟨-, -, -, -, -, -, -, -, -, -, -, -, -, -, -, -, -, -, -, -, eA0, eA1⟩ := idx_facts t
  have tv : t.val = (i 0).val / 8 := rfl
  refine ⟨t, flush0_10 t, (mem_blk10 t i).mpr fun a => ?_⟩
  match a with
  | ⟨0, _⟩ => show win0_10.index t (0 : Fin 2) * 8 ≤ (i 0).val ∧ (i 0).val < win0_10.index t (0 : Fin 2) * 8 + 8; omega
  | ⟨1, _⟩ => show win0_10.index t (1 : Fin 2) * 1 ≤ (i 1).val ∧ (i 1).val < win0_10.index t (1 : Fin 2) * 1 + 1; omega

/-- The logit column after the call. -/
theorem finalLogit (c : Dev nD) : (dat0 V c).arrAt 9 cfg0.N = logitCol V c :=
  (dat0 V c).arrAt_eq_of_cover 9 (logitCol V c) (fun t _ => flushedLogit_eq V c t) cover9

/-- The score column after the call. -/
theorem finalScore (c : Dev nD) : (dat0 V c).arrAt 10 cfg0.N = scoreCol V c :=
  (dat0 V c).arrAt_eq_of_cover 10 (scoreCol V c) (fun t _ => flushedScore_eq V c t) cover10

end Cert.KernelIdeal.ScoreArrays

end
-- ==== Proof.Normalise.lean ====
/-
  What the normalising kernel computes, read at an index.

  Its one block is the whole column of 1024 logits.  The body views the column [1024, 1] as [1, 1024, 1], takes the
  maximum of all entries from minus infinity, subtracts it, exponentiates, adds all the exponentials and divides: entry
  (n, 0) of its result is the softmax of the logits at n.  A maximum or a sum over every entry of the [1, 1024, 1] view is
  the same fold or sum over the 1024 logits, the view's entries and the logits being in bijection.
-/
import proofs.«177482_g71854802862086_cont_9to1_m_883_2_alg».proof.Proof.Gen.KernelIdeal.Skeleton
import proofs.«177482_g71854802862086_cont_9to1_m_883_2_alg».proof.Proof.Spec
import proofs.«177482_g71854802862086_cont_9to1_m_883_2_alg».proof.Proof.LibColumnSoftmax
import Idealize.ShloMosaic.Lib.Pipeline.Value
import Idealize.ShloMosaic.Lib.ValueIdx
import Idealize.ShloMosaic.PureOps.Ideal.Laws

noncomputable section

open scoped BigOperators

namespace Cert.KernelIdeal.Normalise

open Idealize.ShloMosaic Idealize.ShloMosaic.ValueIdx Idealize.ShloMosaic.ColumnSoftmax Cert.KernelIdeal Cert.KernelIdeal.Gen ReplayScore

variable [Cert.KernelIdeal.Facts]

theorem exp_apply {s : Shape} {φ : FTy} (v : FVec Ideal s φ) (i : s.Idx) : exp v i = Ideal.exp (v i) := rfl

/-- The body's result at (n, 0): the softmax of the block's 1024 logits at n. -/
theorem softmax_apply (x : Vec Ideal S1024x1 .f32) (n : Fin 1024) (z : Fin 1) :
    k1_pay1 (F := Ideal) x (ix2 n z) = softmax (fun k => x (ix2 k 0)) n := by
  have hz : z = 0 := Subsingleton.elim _ _
  subst hz
  unfold k1_pay1 softmax shift
  dsimp only
  rw [divf_apply, exp_apply, subf_apply, broadcast_apply, broadcast_apply]
  unfold extractAt
  rw [unit_apply, unit_apply, viewMax_apply, viewSum_apply]
  simp only [view_apply, shapeCast_self, exp_apply, subf_apply, broadcast_apply]

end Cert.KernelIdeal.Normalise

end
-- ==== Proof.NormArrays.lean ====
/-
  From the normalising kernel's one block to its result column.

  The call has no grid: its one point takes the whole logit column and writes the whole weight column, so the column ends
  as the softmax of the logits the call was entered with.
-/
import proofs.«177482_g71854802862086_cont_9to1_m_883_2_alg».proof.Proof.Gen.KernelIdeal.Frame
import proofs.«177482_g71854802862086_cont_9to1_m_883_2_alg».proof.Proof.Spec
import proofs.«177482_g71854802862086_cont_9to1_m_883_2_alg».proof.Proof.Normalise
import Idealize.ShloMosaic.Lib.Pipeline.Value
import Idealize.ShloMosaic.Lib.ValueIdx

set_option maxRecDepth 16384

noncomputable section

open scoped BigOperators

namespace Cert.KernelIdeal.NormArrays

open Idealize.ShloMosaic Idealize.ShloMosaic.TcCoe Idealize.ShloMosaic.ValueIdx Idealize.SL.Sem
open Cert.KernelIdeal Cert.KernelIdeal.Gen ReplayScore Cert.KernelIdeal.Normalise
open Idealize.ShloMosaic.Pipeline (Dat Cfg Window)

variable (V : (c : Dev nD) → (b : Ref sig .tc) → Buf (Elt Ideal) ((c : Thread nD τ).loc b))

/-- The softmax of a column of 1024 logits, as a column. -/
def softmaxCol (l : S1024x1.Idx → EReal) : S1024x1.Idx → EReal := fun i =>
  softmax (fun k => l (ix2 k 0)) ⟨(i 0).val, (i 0).isLt⟩

/-- The weight column the call leaves, from the logit column it was entered with. -/
def weightCol (c : Dev nD) : S1024x1.Idx → EReal := softmaxCol (V c main_v5_0)

theorem hz : (![0, 0] : Fin 2 → Nat) = fun _ => 0 := funext fun a => by fin_cases a <;> rfl

/-- Both windows sit at block index 0. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- What the one point writes back is the whole softmax column. -/
theorem flushedWeight_eq (c : Dev nD) (t : Fin cfg1.N) :
    (dat1 V c).flushed 1 t = ((cfg1.win 1).blk t).view.read (Elt Ideal) (weightCol V c) := by
  show (cfg1.win 1).cut (grid1.coords t) ((dat1 V c).after 1 t) = _
  rw [after1_1]
  unfold out1_1
  rw [View.canon_unit_zero hz]
  simp only [View.ld_unit_zero (S := S1024x1) hz]
  funext y
  obtain ⟨n, z, rfl⟩ : ∃ (n : Fin 1024) (z : Fin 1), y = ix2 n z := ⟨y 0, y 1, eq_ix2 y⟩
  obtain ⟨e00, e01, e10, e11⟩ := idx_facts t
  refine (softmax_apply (iblk1 V c 0 t) n z).trans ?_
  show _ = weightCol V c (((cfg1.win 1).blk t).view.emb (ix2 n z))
  unfold weightCol softmaxCol
  have hl : ∀ k : Fin 1024, iblk1 V c 0 t (ix2 k 0) = V c main_v5_0 (ix2 k 0) := fun k => by
    show V c main_v5_0 (((cfg1.win 0).blk t).view.emb (ix2 k 0)) = _
    refine congrArg (V c main_v5_0) (funext fun a => Fin.ext ?_)
    match a with
    | ⟨0, _⟩ => show win1_0.index t (0 : Fin 2) * 1024 + 1 * k.val = k.val; omega
    | ⟨1, _⟩ => show win1_0.index t (1 : Fin 2) * 1 + 1 * 0 = 0; omega
  simp only [hl]
  refine congrArg _ (Fin.ext ?_)
  show n.val = win1_1.index t (0 : Fin 2) * 1024 + 1 * n.val
  omega

theorem mem_blk1 (t : Fin cfg1.N) (i : S1024x1.Idx) :
    i ∈ ((cfg1.win 1).blk t).view.set ↔ ∀ a : Fin 2, win1_1.index t a * S1024x1.size a ≤ (i a).val ∧ (i a).val < win1_1.index t a * S1024x1.size a + S1024x1.size a := by
  show i ∈ ((View.whole main_v6).slice (win1_1.rect t)).set ↔ _
  rw [View.set_slice_whole, Rect.mem_set_unit]
  exact Iff.rfl

/-- Every row of the column is in the one point's block. -/
theorem cover1 (i : S1024x1.Idx) : ∃ t : Fin cfg1.N, (cfg1.win 1).flush t = true ∧ i ∈ ((cfg1.win 1).blk t).view.set := by
  have h0 : (i 0).val < 1024 := (i 0).isLt
  have h1 : (i 1).val < 1 := (i 1).isLt
  let t : Fin cfg1.N := ⟨0, by decide⟩
  obtain ⟨-, -, e10, e11⟩ := idx_facts t
  refine ⟨t, flush1_1 t, (mem_blk1 t i).mpr fun a => ?_⟩
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 1 ≤ (i 1).val ∧ (i 1).val < win1_1.index t (1 : Fin 2) * 1 + 1; omega

/-- The weight column after the call. -/
theorem finalWeight (c : Dev nD) : (dat1 V c).arrAt 1 cfg1.N = weightCol V c :=
  (dat1 V c).arrAt_eq_of_cover 1 (weightCol V c) (fun t _ => flushedWeight_eq V c t) cover1

end Cert.KernelIdeal.NormArrays

end
-- ==== Proof.KernelValue.lean ====
/-
  The kernel program's two results, index by index, from its arguments.

  The host reshapes before the first call lay step τ of trajectory n at row 256·n + τ of the flattened states and
  actions, and turn the two biases and the output column into rows [1, 512]; so the first call's score column holds, at row
  n, the score of trajectory n read off the arguments, and its logit column the summed reward less that.  The second call
  turns the logit column into its softmax, and the closing reshapes read both columns as vectors of 1024.
-/
import proofs.«177482_g71854802862086_cont_9to1_m_883_2_alg».proof.Proof.Gen.KernelIdeal.Frame
import proofs.«177482_g71854802862086_cont_9to1_m_883_2_alg».proof.Proof.Spec
import proofs.«177482_g71854802862086_cont_9to1_m_883_2_alg».proof.Proof.ScoreArrays
import proofs.«177482_g71854802862086_cont_9to1_m_883_2_alg».proof.Proof.NormArrays
import proofs.«177482_g71854802862086_cont_9to1_m_883_2_alg».proof.Proof.LibRowPairs
import proofs.«177482_g71854802862086_cont_9to1_m_883_2_alg».proof.Proof.LibColumnSoftmax
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Results

open Idealize.ShloMosaic Idealize.ShloMosaic.TcCoe Idealize.ShloMosaic.ValueIdx Idealize.SL.Sem Idealize.ShloMosaic.StableHlo
open Cert.KernelIdeal Cert.KernelIdeal.Gen ReplayScore Cert.KernelIdeal.ScoreArrays Cert.KernelIdeal.NormArrays Idealize.ShloMosaic.ColumnSoftmax

/-! ## The reshapes read at an index -/

section Casts
variable {α : Type}

/-- [1024, 256, c] flattened to [262144, c]: row 256·n + τ is step τ of trajectory n. -/
theorem flat_apply {c : Nat} (x : (⟨3, ![1024, 256, c]⟩ : Shape).Idx → α)
    (h : (⟨3, ![1024, 256, c]⟩ : Shape).ShapeCasts ⟨2, ![262144, c]⟩) (n : Fin 1024) (τ : Fin 256) (k : Fin c) :
    shapeCast ⟨2, ![262144, c]⟩ x h (ix2 (flatRow n τ) k) = x (ix3 n τ k) :=
  RowPairs.shapeCast_pairs_rows_apply x h n τ k (flatRow n τ) rfl

end Casts

/-- The score read off reshaped arrays is the score read off the arguments. -/
theorem scoreOf_reshaped (a0 : S1024x256x128.Idx → EReal) (a1 : S1024x256x32.Idx → EReal) (a3 : S128x512.Idx → EReal)
    (a4 : S32x512.Idx → EReal) (a5 : S512.Idx → EReal) (a6 : S512x512.Idx → EReal) (a7 : S512.Idx → EReal) (a8 : S512x1.Idx → EReal)
    (h0 : S1024x256x128.ShapeCasts S262144x128) (h1 : S1024x256x32.ShapeCasts S262144x32) (h5 : S512.ShapeCasts S1x512)
    (h8 : S512x1.ShapeCasts S1x512) (n : Fin 1024) :
    scoreOf (shapeCast S262144x128 a0 h0) (shapeCast S262144x32 a1 h1) a3 a4 (shapeCast S1x512 a5 h5) a6 (shapeCast S1x512 a7 h5)
        (shapeCast S1x512 a8 h8) n
      = trajScore a0 a1 a3 a4 a5 a6 a7 a8 n := by
  unfold scoreOf trajScore
  simp only [flat_apply, row_apply, colRow_apply]

variable (m : (ℓ : Loc nD τ sig) → Buf (Elt Ideal) ℓ) (ρ : Dev nD → PrngReg)

/-! ## The arrays the first call is entered with -/

theorem entry_v0 (c : Dev nD) : V1 m ρ c main_v0
    = shapeCast S262144x128 (m ((c.tc : Thread nD τ).loc main_arg0)) shapeCasts_S1024x256x128_S262144x128 := by
  dsimp only [V1, W1, hostOps0]; after_results; rfl
theorem entry_v1 (c : Dev nD) : V1 m ρ c main_v1
    = shapeCast S262144x32 (m ((c.tc : Thread nD τ).loc main_arg1)) shapeCasts_S1024x256x32_S262144x32 := by
  dsimp only [V1, W1, hostOps0]; after_results; rfl
theorem entry_v2 (c : Dev nD) : V1 m ρ c main_v2
    = shapeCast S1x512 (m ((c.tc : Thread nD τ).loc main_arg5)) shapeCasts_S512_S1x512 := by
  dsimp only [V1, W1, hostOps0]; after_results; rfl
theorem entry_v3 (c : Dev nD) : V1 m ρ c main_v3
    = shapeCast S1x512 (m ((c.tc : Thread nD τ).loc main_arg7)) shapeCasts_S512_S1x512 := by
  dsimp only [V1, W1, hostOps0]; after_results; rfl
theorem entry_v4 (c : Dev nD) : V1 m ρ c main_v4
    = shapeCast S1x512 (m ((c.tc : Thread nD τ).loc main_arg8)) shapeCasts_S512x1_S1x512 := by
  dsimp only [V1, W1, hostOps0]; after_results; rfl
theorem entry_arg2 (c : Dev nD) : V1 m ρ c main_arg2 = m ((c.tc : Thread nD τ).loc main_arg2) := by
  dsimp only [V1, W1, hostOps0]; after_results
theorem entry_arg3 (c : Dev nD) : V1 m ρ c main_arg3 = m ((c.tc : Thread nD τ).loc main_arg3) := by
  dsimp only [V1, W1, hostOps0]; after_results
theorem entry_arg4 (c : Dev nD) : V1 m ρ c main_arg4 = m ((c.tc : Thread nD τ).loc main_arg4) := by
  dsimp only [V1, W1, hostOps0]; after_results
theorem entry_arg6 (c : Dev nD) : V1 m ρ c main_arg6 = m ((c.tc : Thread nD τ).loc main_arg6) := by
  dsimp only [V1, W1, hostOps0]; after_results

/-- Row n of the first call's score column: the score of trajectory n from the arguments. -/
theorem scoreCol_apply (c : Dev nD) (n : Fin 1024) :
    scoreCol (V1 m ρ) c (ix2 n 0)
      = trajScore (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) n := by
  unfold scoreCol
  rw [entry_v0, entry_v1, entry_v2, entry_v3, entry_v4, entry_arg3, entry_arg4, entry_arg6]
  exact scoreOf_reshaped _ _ _ _ _ _ _ _ _ _ _ _ n

/-- Row n of the first call's logit column: the logit of trajectory n from the arguments. -/
theorem logitCol_apply (c : Dev nD) (n : Fin 1024) :
    logitCol (V1 m ρ) c (ix2 n 0)
      = trajLogit (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) n := by
  unfold logitCol trajLogit
  rw [scoreCol_apply, entry_arg2]
  rfl

/-! ## The two results -/

/-- The second result at n: the score of trajectory n. -/
theorem score_apply (c : Dev nD) (n : Fin 1024) :
    (W4 m ρ c (Proc.devRef .tc main_v8) : S1024.Idx → EReal) (ix1 n)
      = trajScore (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) n := by
  have e : W4 m ρ c (Proc.devRef .tc main_v8)
      = shapeCast S1024 (W3 m ρ c (Proc.devRef .tc main_v5_1)) shapeCasts_S1024x1_S1024 := by
    dsimp only [W4, hostOps2]; after_results; rfl
  have e3 : W3 m ρ c (Proc.devRef .tc main_v5_1) = scoreCol (V1 m ρ) c :=
    (W3_of_ne m ρ c main_v5_1 (by decide)).trans ((W2_arr m ρ c 10).trans (finalScore (V1 m ρ) c))
  rw [e, e3, colVec_apply, scoreCol_apply]

/-- The first result at n: the importance weight of trajectory n. -/
theorem weight_apply (c : Dev nD) (n : Fin 1024) :
    (W4 m ρ c (Proc.devRef .tc main_v7) : S1024.Idx → EReal) (ix1 n)
      = trajWeight (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) n := by
  have e : W4 m ρ c (Proc.devRef .tc main_v7)
      = shapeCast S1024 (W3 m ρ c (Proc.devRef .tc main_v6)) shapeCasts_S1024x1_S1024 := by
    dsimp only [W4, hostOps2]; after_results; rfl
  have e3 : W3 m ρ c (Proc.devRef .tc main_v6) = weightCol (V2 m ρ) c :=
    (W3_arr m ρ c 1).trans (finalWeight (V2 m ρ) c)
  have e2 : V2 m ρ c main_v5_0 = logitCol (V1 m ρ) c := (W2_arr m ρ c 9).trans (finalLogit (V1 m ρ) c)
  rw [e, e3, colVec_apply]
  unfold weightCol softmaxCol trajWeight
  rw [e2]
  simp only [logitCol_apply]

end Cert.KernelIdeal.Results

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«177482_g71854802862086_cont_9to1_m_883_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RefValue.lean ====
/-
  What the reference program computes, read at an index.

  The reference flattens states and actions to 262144 rows, applies the two layers to all rows at once, multiplies the
  [262144, 512] features by the output column, views the 262144 step scores as [1024, 256] and adds each trajectory's
  256 from zero: at trajectory n this is the steps-outermost score, equal to the features-outermost one.  Row
  256·n + τ of a flattened array is step τ of trajectory n.  The logits, their maximum from minus infinity, the
  exponentials, their sum from zero and the quotient are then the softmax of the logits.
-/
import proofs.«177482_g71854802862086_cont_9to1_m_883_2_alg».proof.Proof.Gen.ReferenceIdeal.Read
import proofs.«177482_g71854802862086_cont_9to1_m_883_2_alg».proof.Proof.Spec
import proofs.«177482_g71854802862086_cont_9to1_m_883_2_alg».proof.Proof.LibPlainMatmul
import proofs.«177482_g71854802862086_cont_9to1_m_883_2_alg».proof.Proof.LibPlainDot
import proofs.«177482_g71854802862086_cont_9to1_m_883_2_alg».proof.Proof.LibHostReads
import proofs.«177482_g71854802862086_cont_9to1_m_883_2_alg».proof.Proof.LibRowPairs
import proofs.«177482_g71854802862086_cont_9to1_m_883_2_alg».proof.Proof.LibColumnSoftmax
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.ShloMosaic.ColumnSoftmax Cert.ReferenceIdeal Cert.ReferenceIdeal.Gen Cert.ReferenceIdeal.Read ReplayScore

variable [Cert.ReferenceIdeal.Facts]

variable (x0 : S1024x256x128.Idx → EReal) (x1 : S1024x256x32.Idx → EReal) (x2 : S1024x256.Idx → EReal)
  (x3 : S128x512.Idx → EReal) (x4 : S32x512.Idx → EReal) (x5 : S512.Idx → EReal) (x6 : S512x512.Idx → EReal)
  (x7 : S512.Idx → EReal) (x8 : S512x1.Idx → EReal)

/-- Row 256·n + τ of the flattened arrays: step τ of trajectory n. -/
abbrev flatRow (n : Fin 1024) (τ : Fin 256) : Fin 262144 := ⟨n.val * 256 + τ.val, by have := n.isLt; have := τ.isLt; omega⟩

theorem dotS_eq : dot_S262144x128_S128x512_S262144x512_1_0_0_1_n_n = DotDims.plain 262144 128 512 := rfl
theorem dotA_eq : dot_S262144x32_S32x512_S262144x512_1_0_0_1_n_n = DotDims.plain 262144 32 512 := rfl
theorem dotH_eq : dot_S262144x512_S512x512_S262144x512_1_0_0_1_n_n = DotDims.plain 262144 512 512 := rfl
theorem dotO_eq : dot_S262144x512_S512x1_S262144x1_1_0_0_1_n_n = DotDims.plain 262144 512 1 := rfl

/-- The first layer's features of the flattened row of step τ of trajectory n. -/
theorem hidden1_apply (n : Fin 1024) (τ : Fin 256) (h : Fin 512) :
    val_main_v8 (F := Ideal) x0 x1 x3 x4 x5 (ix2 (flatRow n τ) h)
      = layer1 (fun k => x0 (ix3 n τ k)) (fun k => x1 (ix3 n τ k)) (fun k h => x3 (ix2 k h)) (fun k h => x4 (ix2 k h))
          (fun h => x5 (ix1 h)) h := by
  rw [val_main_v8_apply, val_main_v7_apply, val_main_v4_apply]
  unfold val_main_v2 val_main_v3 val_main_v6 val_main_v5 val_main_v0 val_main_v1 layer1
  rw [dotS_eq, dotA_eq, PlainDot.plainDot_apply, PlainDot.plainDot_apply, HostReads.bcast_row_apply, HostReads.bcast_toRow_apply]
  simp only [RowPairs.shapeCast_pairs_rows_apply _ _ n τ _ (flatRow n τ) rfl]
  rfl

/-- The second layer's features of that row. -/
theorem hidden2_apply (n : Fin 1024) (τ : Fin 256) (h : Fin 512) :
    val_main_v13 (F := Ideal) x0 x1 x3 x4 x5 x6 x7 (ix2 (flatRow n τ) h)
      = layer2 (layer1 (fun k => x0 (ix3 n τ k)) (fun k => x1 (ix3 n τ k)) (fun k h => x3 (ix2 k h)) (fun k h => x4 (ix2 k h))
          (fun h => x5 (ix1 h))) (fun k h => x6 (ix2 k h)) (fun h => x7 (ix1 h)) h := by
  rw [val_main_v13_apply, val_main_v12_apply]
  unfold val_main_v9 val_main_v11 val_main_v10 layer2
  rw [dotH_eq, PlainDot.plainDot_apply, HostReads.bcast_row_apply, HostReads.bcast_toRow_apply]
  simp only [hidden1_apply]
  rfl

/-- The score of step τ of trajectory n. -/
theorem stepScore_apply (n : Fin 1024) (τ : Fin 256) :
    val_main_v15 (F := Ideal) x0 x1 x3 x4 x5 x6 x7 x8 (ix2 n τ)
      = ∑ h : Fin 512, weighted (fun k => x0 (ix3 n τ k)) (fun k => x1 (ix3 n τ k)) (fun k h => x3 (ix2 k h))
          (fun k h => x4 (ix2 k h)) (fun h => x5 (ix1 h)) (fun k h => x6 (ix2 k h)) (fun h => x7 (ix1 h)) (fun h => x8 (ix2 h 0)) h := by
  rw [val_main_v15_apply]
  have e : idx_main_v15 (ix2 n τ) = ix2 (flatRow n τ) (0 : Fin 1) := funext fun a => Fin.ext (by
    match a with
    | ⟨0, _⟩ => show (n.val * 256 + τ.val) / 1 = n.val * 256 + τ.val; omega
    | ⟨1, _⟩ => rfl)
  rw [e]
  unfold val_main_v14 weighted
  rw [dotO_eq, PlainDot.plainDot_apply]
  simp only [hidden2_apply]

/-- The reference's second result at n: the score of trajectory n. -/
theorem score_apply (n : Fin 1024) :
    val_main_v16 (F := Ideal) x0 x1 x3 x4 x5 x6 x7 x8 (ix1 n) = trajScore x0 x1 x3 x4 x5 x6 x7 x8 n := by
  rw [val_main_v16_apply, val_main_cst_apply]
  have e : ∀ τ : Fin 256, idx_main_v16 (ix1 n) τ = ix2 n τ := fun τ => funext fun a => Fin.ext (by
    match a with
    | ⟨0, _⟩ => rfl
    | ⟨1, _⟩ => rfl)
  simp only [e, stepScore_apply]
  unfold trajScore
  rw [← scoreByStep_eq]
  unfold scoreByStep
  rw [Ideal.ofBits_def, Ideal.ofBits_zero_f32]

/-- The reference's logit of trajectory n. -/
theorem logit_apply (n : Fin 1024) :
    val_main_v18 (F := Ideal) x0 x1 x2 x3 x4 x5 x6 x7 x8 (ix1 n) = trajLogit x0 x1 x2 x3 x4 x5 x6 x7 x8 n := by
  rw [val_main_v18_apply, val_main_v17_apply, val_main_cst_0_apply, score_apply]
  have e : ∀ τ : Fin 256, idx_main_v17 (ix1 n) τ = ix2 n τ := fun τ => funext fun a => Fin.ext (by
    match a with
    | ⟨0, _⟩ => rfl
    | ⟨1, _⟩ => rfl)
  simp only [e]
  unfold trajLogit
  rw [Ideal.ofBits_def, Ideal.ofBits_zero_f32, zero_add]
  rfl

/-- The reference's maximum of the logits, from minus infinity: the shift of their softmax. -/
theorem shift_apply (j : S_.Idx) :
    val_main_v19 (F := Ideal) x0 x1 x2 x3 x4 x5 x6 x7 x8 j = shift (trajLogit x0 x1 x2 x3 x4 x5 x6 x7 x8) := by
  unfold val_main_v19 shift
  refine (hostMaxAll_apply _ _ _ _ j).trans ?_
  refine congrArg₂ (fun b f => Finset.fold max b f Finset.univ) rfl (funext fun k => ?_)
  exact logit_apply x0 x1 x2 x3 x4 x5 x6 x7 x8 k

/-- The reference's first result at n: the importance weight of trajectory n. -/
theorem weight_apply (n : Fin 1024) :
    val_main_v26 (F := Ideal) x0 x1 x2 x3 x4 x5 x6 x7 x8 (ix1 n) = trajWeight x0 x1 x2 x3 x4 x5 x6 x7 x8 n := by
  rw [val_main_v26_apply, val_main_v22_apply, val_main_v25_apply, val_main_v24_apply, val_main_v21_apply, val_main_v20_apply,
    val_main_cst_2_apply, shift_apply, logit_apply, ← Equiv.sum_comp (vecEquiv 1024)]
  simp only [val_main_v23_apply, val_main_v21_apply, val_main_v20_apply, shift_apply]
  unfold trajWeight softmax
  have e : ∀ k : Fin 1024, val_main_v18 (F := Ideal) x0 x1 x2 x3 x4 x5 x6 x7 x8 (vecEquiv 1024 k) = trajLogit x0 x1 x2 x3 x4 x5 x6 x7 x8 k :=
    fun k => logit_apply x0 x1 x2 x3 x4 x5 x6 x7 x8 k
  simp only [e]
  rw [Ideal.ofBits_def, Ideal.ofBits_zero_f32, zero_add]
  rfl

end Cert.ReferenceIdeal.RefValue

end
-- ==== Proof.lean ====
/-
  The certificate of the trajectory scorer: a Pallas kernel program against its jnp reference, on the extended reals.

  Both programs compute, for each of 1024 trajectories of 256 steps, the trajectory's score — the sum over its steps of
  the inner product of the step's features tanh (tanh (s·W1 + a·W2 + b1)·W3 + b3) with the output weights — and the
  softmax over the trajectories of (summed reward − score).  The kernel program works on blocks of 8 trajectories and
  adds, per feature, the steps first and the features last; the reference multiplies all 262144 rows by the output
  column and adds each trajectory's steps from zero.  The two are one double sum taken in two orders, and sums on the
  extended reals commute and associate with no finiteness asked, so the precondition is never opened.  A change of
  float format is the identity there, and a matrix product is a plain sum of products on both sides.

  The three frames are the generated ones (the reference's is its generated run with the results dropped); the
  idealization rewrote nothing, so `preserves` is trivial; `algebraic` names both results as functions of the nine
  argument arrays and reads both programs' runs at an index.
-/
import proofs.«177482_g71854802862086_cont_9to1_m_883_2_alg».proof.Defs
import proofs.«177482_g71854802862086_cont_9to1_m_883_2_alg».proof.Proof.Gen.Kernel
import proofs.«177482_g71854802862086_cont_9to1_m_883_2_alg».proof.Proof.Gen.Kernel.Skeleton
import proofs.«177482_g71854802862086_cont_9to1_m_883_2_alg».proof.Proof.Gen.Kernel.Launch
import proofs.«177482_g71854802862086_cont_9to1_m_883_2_alg».proof.Proof.Gen.Kernel.Points
import proofs.«177482_g71854802862086_cont_9to1_m_883_2_alg».proof.Proof.Gen.Kernel.Frame
import proofs.«177482_g71854802862086_cont_9to1_m_883_2_alg».proof.Proof.Gen.KernelIdeal
import proofs.«177482_g71854802862086_cont_9to1_m_883_2_alg».proof.Proof.Gen.KernelIdeal.Skeleton
import proofs.«177482_g71854802862086_cont_9to1_m_883_2_alg».proof.Proof.Gen.KernelIdeal.Launch
import proofs.«177482_g71854802862086_cont_9to1_m_883_2_alg».proof.Proof.Gen.KernelIdeal.Points
import proofs.«177482_g71854802862086_cont_9to1_m_883_2_alg».proof.Proof.Gen.KernelIdeal.Frame
import proofs.«177482_g71854802862086_cont_9to1_m_883_2_alg».proof.Proof.Gen.ReferenceIdeal
import proofs.«177482_g71854802862086_cont_9to1_m_883_2_alg».proof.Proof.Gen.Pre_finite_inputs
import proofs.«177482_g71854802862086_cont_9to1_m_883_2_alg».proof.Proof.Gen.ReferenceIdeal.Run
import proofs.«177482_g71854802862086_cont_9to1_m_883_2_alg».proof.Proof.Gen.ReferenceIdeal.Read
import proofs.«177482_g71854802862086_cont_9to1_m_883_2_alg».proof.Proof.Spec
import proofs.«177482_g71854802862086_cont_9to1_m_883_2_alg».proof.Proof.KernelRun
import proofs.«177482_g71854802862086_cont_9to1_m_883_2_alg».proof.Proof.KernelValue
import proofs.«177482_g71854802862086_cont_9to1_m_883_2_alg».proof.Proof.RefValue
import Idealize.ShloMosaic.Adequacy
import Idealize.ShloMosaic.Init

noncomputable section

namespace Cert.Proof

open Idealize.ShloMosaic Idealize.ShloMosaic.ValueIdx Idealize.SL.Sem ReplayScore

section Claims

variable [hK : Cert.Kernel.Facts] [hKI : Cert.KernelIdeal.Facts] [hRI : Cert.ReferenceIdeal.Facts] [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the importance weights `trajWeight` and the scores `trajScore` of the argument arrays. -/
theorem algebraic : Cert.algebraic_KernelIdeal_ReferenceIdeal := by
  intro m ρ m' ρ' _ hagree
  refine ⟨fun c i => trajWeight (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) ⟨(i 0).val, (i 0).isLt⟩,
    fun c i => trajScore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) ⟨(i 0).val, (i 0).isLt⟩, ?_, ?_⟩
  · refine (θ_run Cert.KernelIdeal.defs _ _).mono (fun r h c => ?_) (Cert.KernelIdeal.Outputs.run_results (F := Ideal) m ρ)
    obtain ⟨h7, h8, hargs⟩ := h c
    refine ⟨h7.trans (funext fun i => ?_), h8.trans (funext fun i => ?_), hargs⟩
    · obtain ⟨n, rfl⟩ : ∃ n : Fin 1024, i = ix1 n := ⟨i 0, eq_ix1 i⟩
      exact Cert.KernelIdeal.Results.weight_apply m ρ c n
    · obtain ⟨n, rfl⟩ : ∃ n : Fin 1024, i = ix1 n := ⟨i 0, eq_ix1 i⟩
      exact Cert.KernelIdeal.Results.score_apply m ρ c n
  · refine (θ_run Cert.ReferenceIdeal.defs _ _).mono (fun r h c => ?_) (Cert.ReferenceIdeal.Value.run (F := Ideal) m' ρ')
    obtain ⟨h26, h16, hargs⟩ := h c
    obtain ⟨g0, g1, g2, g3, g4, g5, g6, g7, g8⟩ := hagree c
    refine ⟨h26.trans ?_, h16.trans ?_, hargs⟩
    · rw [Cert.ReferenceIdeal.Read.val_main_v26_eq, g0, g1, g2, g3, g4, g5, g6, g7, g8]
      funext i
      obtain ⟨n, rfl⟩ : ∃ n : Fin 1024, i = ix1 n := ⟨i 0, eq_ix1 i⟩
      exact Cert.ReferenceIdeal.RefValue.weight_apply _ _ _ _ _ _ _ _ _ n
    · rw [Cert.ReferenceIdeal.Read.val_main_v16_eq, g0, g1, g3, g4, g5, g6, g7, g8]
      funext i
      obtain ⟨n, rfl⟩ : ∃ n : Fin 1024, i = ix1 n := ⟨i 0, eq_ix1 i⟩
      exact Cert.ReferenceIdeal.RefValue.score_apply _ _ _ _ _ _ _ _ n

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
